-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S2048x64x32 : Shape := ⟨3, ![2048, 64, 32]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x64x32 : S_.BroadcastsInDim S2048x64x32 (![] : Fin 0 → Fin S2048x64x32.rank)
  reducesTo_S2048x64x32_S_d0_1_2 : S2048x64x32.ReducesTo [0, 1, 2] S_

variable [Facts]

def fn {F : FTy → Type} [FloatOps F] (main_arg0 : FVec F S256x2048 .f32) (main_arg1 : FVec F S2048x64x32 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048x64x32 .f32 := Host.absf main_arg1
  let main_cst_0 : FVec F S_ .f32 := constant S_ .f32 0x7F800000#32
  let main_v5 : FVec F S2048x64x32 .f32 := broadcastInDim S2048x64x32 ![] bcast_S_S2048x64x32 main_cst_0
  let main_v6 : IVec S2048x64x32 1 := cmpf .olt main_v4 main_v5
  let main_c_1 : IVec S_ 1 := constantI S_ 1 1#1
  let main_v7 : IVec S_ 1 := (fun x v => Host.reduce IntOp.andi x v reducesTo_S2048x64x32_S_d0_1_2 h_S_) main_v6 main_c_1
  let main_v8 : IVec S_ 1 := andi main_v3 main_v7
  main_v8
-- ==== Kernel.lean ====
abbrev S256x2048 : Shape := ⟨2, ![256, 2048]⟩
abbrev S2048x64x32 : Shape := ⟨3, ![2048, 64, 32]⟩
abbrev S2048x2048 : Shape := ⟨2, ![2048, 2048]⟩
abbrev S256x512 : Shape := ⟨2, ![256, 512]⟩
abbrev S512x512 : Shape := ⟨2, ![512, 512]⟩
abbrev S256x64x32 : Shape := ⟨3, ![256, 64, 32]⟩
abbrev S64x32x256 : Shape := ⟨3, ![64, 32, 256]⟩
abbrev S256x64 : Shape := ⟨2, ![256, 64]⟩
abbrev S128x64x32 : Shape := ⟨3, ![128, 64, 32]⟩
abbrev S64x32x128 : Shape := ⟨3, ![64, 32, 128]⟩
abbrev S128x64 : Shape := ⟨2, ![128, 64]⟩
abbrev S128x64x128 : Shape := ⟨3, ![128, 64, 128]⟩
abbrev S128x64x1 : Shape := ⟨3, ![128, 64, 1]⟩
abbrev S64x1x128 : Shape := ⟨3, ![64, 1, 128]⟩
abbrev S64x128 : Shape := ⟨2, ![64, 128]⟩
abbrev S1x64x128 : Shape := ⟨3, ![1, 64, 128]⟩

abbrev nBuf : Space → Nat
  | .hbm => 7
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S2048x64x32, .f32⟩
  | .hbm, ⟨2, _⟩ => ⟨S2048x2048, .f32⟩
  | .hbm, ⟨3, _⟩ => ⟨S256x2048, .f32⟩
  | .hbm, ⟨4, _⟩ => ⟨S256x64x32, .f32⟩
  | .hbm, ⟨5, _⟩ => ⟨S64x32x256, .f32⟩
  | .hbm, ⟨6, _⟩ => ⟨S256x64, .f32⟩
  | .local _ .vmem, ⟨0, _⟩ => ⟨S256x512, .f32⟩
  | .local _ .vmem, ⟨1, _⟩ => ⟨S256x512, .f32⟩
  | .local _ .vmem, ⟨2, _⟩ => ⟨S512x512, .f32⟩
  | .local _ .vmem, ⟨3, _⟩ => ⟨S512x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S128x64x32, .f32⟩
  | .local _ .vmem, ⟨8, _⟩ => ⟨S128x64x32, .f32⟩
  | .local _ .vmem, ⟨9, _⟩ => ⟨S64x32x128, .f32⟩
  | .local _ .vmem, ⟨10, _⟩ => ⟨S64x32x128, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![2, 2], ![false, false]⟩

def k1_cond2 (i : grid1.Coords) : BitVec 1 :=
  let arg1 : BitVec 32 := BitVec.ofNat 32 (i 1).val
  let c1_i32 : BitVec 32 := 1#32
  let v369 : BitVec 1 := Scalar.cmpi .eq arg1 c1_i32
  let v370 : BitVec 32 := Scalar.extui v369
  let c0_i32_12 : BitVec 32 := 0#32
  let v371 : BitVec 1 := Scalar.cmpi .ne v370 c0_i32_12
  v371

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x64x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2048x64x32_S2048x2048 : S2048x64x32.ShapeCasts S2048x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S256x2048_S256x64x32 : S256x2048.ShapeCasts S256x64x32
  transposes_S256x64x32_S64x32x256_1_2_0 : S256x64x32.Transposes [1, 2, 0] S64x32x256
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x64x32_S128x64x32_0_0_0 : ∀ a, (![0, 0, 0] : Fin 3 → Nat) a + S128x64x32.size a ≤ S128x64x32.size a
  h_S128x64x32 : 0 < S128x64x32.numel
  shapeCasts_S128x64x32_S128x64x32 : S128x64x32.ShapeCasts S128x64x32
  inb_S64x32x128_S64x32x128_0_0_0 : ∀ a, (![0, 0, 0] : Fin 3 → Nat) a + S64x32x128.size a ≤ S64x32x128.size a
  h_S64x32x128 : 0 < S64x32x128.numel
  shapeCasts_S64x32x128_S64x32x128 : S64x32x128.ShapeCasts S64x32x128
  slices_S128x64x32_o0_0_0_S128x64x1 : S128x64x32.Slices ![0, 0, 0] S128x64x1
  shapeCasts_S128x64x1_S128x64 : S128x64x1.ShapeCasts S128x64
  slices_S64x32x128_o0_0_0_S64x1x128 : S64x32x128.Slices ![0, 0, 0] S64x1x128
  shapeCasts_S64x1x128_S64x128 : S64x1x128.ShapeCasts S64x128
  shapeCasts_S128x64_S128x64x1 : S128x64.ShapeCasts S128x64x1
  shapeCasts_S64x128_S1x64x128 : S64x128.ShapeCasts S1x64x128
  broadcasts_S128x64x1_S128x64x128 : S128x64x1.Broadcasts S128x64x128
  broadcasts_S1x64x128_S128x64x128 : S1x64x128.Broadcasts S128x64x128
  slices_S128x64x32_o0_0_1_S128x64x1 : S128x64x32.Slices ![0, 0, 1] S128x64x1
  slices_S64x32x128_o0_1_0_S64x1x128 : S64x32x128.Slices ![0, 1, 0] S64x1x128
  slices_S128x64x32_o0_0_2_S128x64x1 : S128x64x32.Slices ![0, 0, 2] S128x64x1
  slices_S64x32x128_o0_2_0_S64x1x128 : S64x32x128.Slices ![0, 2, 0] S64x1x128
  slices_S128x64x32_o0_0_3_S128x64x1 : S128x64x32.Slices ![0, 0, 3] S128x64x1
  slices_S64x32x128_o0_3_0_S64x1x128 : S64x32x128.Slices ![0, 3, 0] S64x1x128
  slices_S128x64x32_o0_0_4_S128x64x1 : S128x64x32.Slices ![0, 0, 4] S128x64x1
  slices_S64x32x128_o0_4_0_S64x1x128 : S64x32x128.Slices ![0, 4, 0] S64x1x128
  slices_S128x64x32_o0_0_5_S128x64x1 : S128x64x32.Slices ![0, 0, 5] S128x64x1
  slices_S64x32x128_o0_5_0_S64x1x128 : S64x32x128.Slices ![0, 5, 0] S64x1x128
  slices_S128x64x32_o0_0_6_S128x64x1 : S128x64x32.Slices ![0, 0, 6] S128x64x1
  slices_S64x32x128_o0_6_0_S64x1x128 : S64x32x128.Slices ![0, 6, 0] S64x1x128
  slices_S128x64x32_o0_0_7_S128x64x1 : S128x64x32.Slices ![0, 0, 7] S128x64x1
  slices_S64x32x128_o0_7_0_S64x1x128 : S64x32x128.Slices ![0, 7, 0] S64x1x128
  slices_S128x64x32_o0_0_8_S128x64x1 : S128x64x32.Slices ![0, 0, 8] S128x64x1
  slices_S64x32x128_o0_8_0_S64x1x128 : S64x32x128.Slices ![0, 8, 0] S64x1x128
  slices_S128x64x32_o0_0_9_S128x64x1 : S128x64x32.Slices ![0, 0, 9] S128x64x1
  slices_S64x32x128_o0_9_0_S64x1x128 : S64x32x128.Slices ![0, 9, 0] S64x1x128
  slices_S128x64x32_o0_0_10_S128x64x1 : S128x64x32.Slices ![0, 0, 10] S128x64x1
  slices_S64x32x128_o0_10_0_S64x1x128 : S64x32x128.Slices ![0, 10, 0] S64x1x128
  slices_S128x64x32_o0_0_11_S128x64x1 : S128x64x32.Slices ![0, 0, 11] S128x64x1
  slices_S64x32x128_o0_11_0_S64x1x128 : S64x32x128.Slices ![0, 11, 0] S64x1x128
  slices_S128x64x32_o0_0_12_S128x64x1 : S128x64x32.Slices ![0, 0, 12] S128x64x1
  slices_S64x32x128_o0_12_0_S64x1x128 : S64x32x128.Slices ![0, 12, 0] S64x1x128
  slices_S128x64x32_o0_0_13_S128x64x1 : S128x64x32.Slices ![0, 0, 13] S128x64x1
  slices_S64x32x128_o0_13_0_S64x1x128 : S64x32x128.Slices ![0, 13, 0] S64x1x128
  slices_S128x64x32_o0_0_14_S128x64x1 : S128x64x32.Slices ![0, 0, 14] S128x64x1
  slices_S64x32x128_o0_14_0_S64x1x128 : S64x32x128.Slices ![0, 14, 0] S64x1x128
  slices_S128x64x32_o0_0_15_S128x64x1 : S128x64x32.Slices ![0, 0, 15] S128x64x1
  slices_S64x32x128_o0_15_0_S64x1x128 : S64x32x128.Slices ![0, 15, 0] S64x1x128
  slices_S128x64x32_o0_0_16_S128x64x1 : S128x64x32.Slices ![0, 0, 16] S128x64x1
  slices_S64x32x128_o0_16_0_S64x1x128 : S64x32x128.Slices ![0, 16, 0] S64x1x128
  slices_S128x64x32_o0_0_17_S128x64x1 : S128x64x32.Slices ![0, 0, 17] S128x64x1
  slices_S64x32x128_o0_17_0_S64x1x128 : S64x32x128.Slices ![0, 17, 0] S64x1x128
  slices_S128x64x32_o0_0_18_S128x64x1 : S128x64x32.Slices ![0, 0, 18] S128x64x1
  slices_S64x32x128_o0_18_0_S64x1x128 : S64x32x128.Slices ![0, 18, 0] S64x1x128
  slices_S128x64x32_o0_0_19_S128x64x1 : S128x64x32.Slices ![0, 0, 19] S128x64x1
  slices_S64x32x128_o0_19_0_S64x1x128 : S64x32x128.Slices ![0, 19, 0] S64x1x128
  slices_S128x64x32_o0_0_20_S128x64x1 : S128x64x32.Slices ![0, 0, 20] S128x64x1
  slices_S64x32x128_o0_20_0_S64x1x128 : S64x32x128.Slices ![0, 20, 0] S64x1x128
  slices_S128x64x32_o0_0_21_S128x64x1 : S128x64x32.Slices ![0, 0, 21] S128x64x1
  slices_S64x32x128_o0_21_0_S64x1x128 : S64x32x128.Slices ![0, 21, 0] S64x1x128
  slices_S128x64x32_o0_0_22_S128x64x1 : S128x64x32.Slices ![0, 0, 22] S128x64x1
  slices_S64x32x128_o0_22_0_S64x1x128 : S64x32x128.Slices ![0, 22, 0] S64x1x128
  slices_S128x64x32_o0_0_23_S128x64x1 : S128x64x32.Slices ![0, 0, 23] S128x64x1
  slices_S64x32x128_o0_23_0_S64x1x128 : S64x32x128.Slices ![0, 23, 0] S64x1x128
  slices_S128x64x32_o0_0_24_S128x64x1 : S128x64x32.Slices ![0, 0, 24] S128x64x1
  slices_S64x32x128_o0_24_0_S64x1x128 : S64x32x128.Slices ![0, 24, 0] S64x1x128
  slices_S128x64x32_o0_0_25_S128x64x1 : S128x64x32.Slices ![0, 0, 25] S128x64x1
  slices_S64x32x128_o0_25_0_S64x1x128 : S64x32x128.Slices ![0, 25, 0] S64x1x128
  slices_S128x64x32_o0_0_26_S128x64x1 : S128x64x32.Slices ![0, 0, 26] S128x64x1
  slices_S64x32x128_o0_26_0_S64x1x128 : S64x32x128.Slices ![0, 26, 0] S64x1x128
  slices_S128x64x32_o0_0_27_S128x64x1 : S128x64x32.Slices ![0, 0, 27] S128x64x1
  slices_S64x32x128_o0_27_0_S64x1x128 : S64x32x128.Slices ![0, 27, 0] S64x1x128
  slices_S128x64x32_o0_0_28_S128x64x1 : S128x64x32.Slices ![0, 0, 28] S128x64x1
  slices_S64x32x128_o0_28_0_S64x1x128 : S64x32x128.Slices ![0, 28, 0] S64x1x128
  slices_S128x64x32_o0_0_29_S128x64x1 : S128x64x32.Slices ![0, 0, 29] S128x64x1
  slices_S64x32x128_o0_29_0_S64x1x128 : S64x32x128.Slices ![0, 29, 0] S64x1x128
  slices_S128x64x32_o0_0_30_S128x64x1 : S128x64x32.Slices ![0, 0, 30] S128x64x1
  slices_S64x32x128_o0_30_0_S64x1x128 : S64x32x128.Slices ![0, 30, 0] S64x1x128
  slices_S128x64x32_o0_0_31_S128x64x1 : S128x64x32.Slices ![0, 0, 31] S128x64x1
  slices_S64x32x128_o0_31_0_S64x1x128 : S64x32x128.Slices ![0, 31, 0] S64x1x128
  reduces_S128x64x128_S128x64 : S128x64x128.Reduces [2] S128x64
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x2048.size a
  hwx0_0 : ∀ i : grid0.Coords, EltTy.bits .f32 = 32 ∨ (Rect.block (s := S256x2048) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x2048.size a
  hwx0_2 : ∀ i : grid0.Coords, EltTy.bits .f32 = 32 ∨ (Rect.block (s := S256x2048) S256x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64x32.size a ≤ S256x64x32.size a
  hwx1_0 : ∀ i : grid1.Coords, EltTy.bits .f32 = 32 ∨ (Rect.block (s := S256x64x32) S128x64x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x32x128.size a ≤ S64x32x256.size a
  hwx1_1 : ∀ i : grid1.Coords, EltTy.bits .f32 = 32 ∨ (Rect.block (s := S64x32x256) S64x32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S256x64.size a
  hwx1_2 : ∀ i : grid1.Coords, EltTy.bits .f32 = 32 ∨ (Rect.block (s := S256x64) S128x64.size (cc1_transform_2 i) (hinb1_2 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S128x64x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x2048 : Shape := ⟨2, ![256, 2048]⟩
abbrev S2048x64x32 : Shape := ⟨3, ![2048, 64, 32]⟩
abbrev S2048x2048 : Shape := ⟨2, ![2048, 2048]⟩
abbrev S256x64x32 : Shape := ⟨3, ![256, 64, 32]⟩
abbrev S256x1x64x32 : Shape := ⟨4, ![256, 1, 64, 32]⟩
abbrev S1x256x64x32 : Shape := ⟨4, ![1, 256, 64, 32]⟩
abbrev S256x256x64x32 : Shape := ⟨4, ![256, 256, 64, 32]⟩
abbrev S_ : Shape := ⟨0, ![]⟩
abbrev S256x256x64 : Shape := ⟨3, ![256, 256, 64]⟩
abbrev S256x64 : Shape := ⟨2, ![256, 64]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x64x32, .f32⟩
  | .hbm, ⟨2, _⟩ => ⟨S2048x2048, .f32⟩
  | .hbm, ⟨3, _⟩ => ⟨S256x2048, .f32⟩
  | .hbm, ⟨4, _⟩ => ⟨S256x64x32, .f32⟩
  | .hbm, ⟨5, _⟩ => ⟨S256x1x64x32, .f32⟩
  | .hbm, ⟨6, _⟩ => ⟨S1x256x64x32, .f32⟩
  | .hbm, ⟨7, _⟩ => ⟨S256x256x64x32, .f32⟩
  | .hbm, ⟨8, _⟩ => ⟨S256x256x64x32, .f32⟩
  | .hbm, ⟨9, _⟩ => ⟨S256x256x64x32, .f32⟩
  | .hbm, ⟨10, _⟩ => ⟨S256x256x64x32, .f32⟩
  | .hbm, ⟨11, _⟩ => ⟨S_, .f32⟩
  | .hbm, ⟨12, _⟩ => ⟨S256x256x64, .f32⟩
  | .hbm, ⟨13, _⟩ => ⟨S256x256x64, .f32⟩
  | .hbm, ⟨14, _⟩ => ⟨S256x256x64, .f32⟩
  | .hbm, ⟨15, _⟩ => ⟨S_, .f32⟩
  | .hbm, ⟨16, _⟩ => ⟨S256x64, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S2048x64x32_S2048x2048 : S2048x64x32.ShapeCasts S2048x2048
  shapeCasts_S256x2048_S256x64x32 : S256x2048.ShapeCasts S256x64x32
  bcast_S256x64x32_S256x1x64x32_0_2_3 : S256x64x32.BroadcastsInDim S256x1x64x32 (![0, 2, 3] : Fin 3 → Fin S256x1x64x32.rank)
  bcast_S256x64x32_S1x256x64x32_1_2_3 : S256x64x32.BroadcastsInDim S1x256x64x32 (![1, 2, 3] : Fin 3 → Fin S1x256x64x32.rank)
  bcast_S256x1x64x32_S256x256x64x32_0_1_2_3 : S256x1x64x32.BroadcastsInDim S256x256x64x32 (![0, 1, 2, 3] : Fin 4 → Fin S256x256x64x32.rank)
  bcast_S1x256x64x32_S256x256x64x32_0_1_2_3 : S1x256x64x32.BroadcastsInDim S256x256x64x32 (![0, 1, 2, 3] : Fin 4 → Fin S256x256x64x32.rank)
  reducesTo_S256x256x64x32_S256x256x64_d3 : S256x256x64x32.ReducesTo [3] S256x256x64
  h_S_ : 0 < S_.numel
  reducesTo_S256x256x64_S256x64_d1 : S256x256x64.ReducesTo [1] S256x64
  dot_S256x2048_S2048x2048_S256x2048_1_0_0_1_n_n_wf : DotDims.WF S256x2048 S2048x2048 S256x2048 [1] [0] [0] [1] [] []

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

class Facts : Prop extends Facts₀ where

variable [Facts]
-- ==== Proof.KW.Base.lean ====
/-
  What the two kernels' runs are stated over, for the program read at any float instance: each window's block at a
  grid point, read off its array as the region finds it; that an input window's staging buffer holds its block at
  every point; the two conditions each body branches on (the first and the last step of its innermost grid axis),
  decided over the grid; where the output window is idle (every point but the last of an accumulation) and where it
  is written back; the staging and scratch memrefs; the scoped rest with the accumulator scratch as a memref.
-/
import proofs.«166065_j11759620457095_2_alg».proof.Proof.Gen.Kernel.Launch
import proofs.«166065_j11759620457095_2_alg».proof.Proof.Gen.Kernel.Skeleton
import proofs.«166065_j11759620457095_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first kernel (the matrix product accumulated over the contraction blocks) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! # The second kernel (the pairwise distances, exponentiated and summed over the lanes) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The first kernel's branch conditions, decided over its 1 × 4 × 4 grid (the contraction axis innermost) -/

/-- "This is the first contraction block": the accumulator is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last contraction block": the accumulator is copied to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last contraction block the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev VO0_2 : View sig .tc .vmem S256x512 .f32 := (Memref.whole cc0_stg2_0 : Memref sig .tc .vmem S256x512 .f32).view
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from one grid point to the next. -/
abbrev scM0_0 : Memref sig .tc .vmem S256x512 .f32 := Memref.whole cc0_scratch0
abbrev VS0_0 : View sig .tc .vmem S256x512 .f32 := scM0_0.view

/-! ## The second kernel's branch conditions, decided over its 2 × 2 grid (the lane tiles innermost) -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S128x64 .f32 := (Memref.whole cc1_stg2_0 : Memref sig .tc .vmem S128x64 .f32).view
abbrev ms1_0 (t : Fin cfg1.N) : Memref sig .tc .vmem S128x64x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev scM1_0 : Memref sig .tc .vmem S128x64 .f32 := Memref.whole cc1_scratch0
abbrev VS1_0 : View sig .tc .vmem S128x64 .f32 := scM1_0.view

/-- The core's scoped buffers that belong to the other kernel, each whole at some contents: this kernel never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped rest and the generator register, with this kernel's accumulator as a memref owned at some contents. -/
theorem PhiA0_elim (c : Dev nD) :
    (Pipeline.ΦA spec0 c : sProp 𝕄) ⊢ iprop((∃ d, owns (c : Thread nD τ) scM0_0 fullShare d) ∗ others0 (F := F) c ∗ (∃ r, prngReg c r)) := by
  unfold Pipeline.ΦA others0; rw [scopedRest0_eq]; simp only [scM0_0, owns_whole]
  iintro ⟨⟨HS, H1, H2, H3, H4, H5, H6, H7⟩, Hg⟩
  isplitl [HS]; · iexact HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  iexact H7

theorem PhiA0_intro (c : Dev nD) :
    iprop((∃ d, owns (c : Thread nD τ) scM0_0 fullShare d) ∗ others0 (F := F) c ∗ (∃ r, prngReg c r)) ⊢ (Pipeline.ΦA spec0 c : sProp 𝕄) := by
  unfold Pipeline.ΦA others0; rw [scopedRest0_eq]; simp only [scM0_0, owns_whole]
  iintro ⟨HS, ⟨H1, H2, H3, H4, H5, H6, H7⟩, Hg⟩
  isplitr [Hg]
  swap; · iexact Hg
  isplitl [HS]; · iexact HS
  isplitl [H1]; · iexact H1
  isplitl [H2]; · iexact H2
  isplitl [H3]; · iexact H3
  isplitl [H4]; · iexact H4
  isplitl [H5]; · iexact H5
  isplitl [H6]; · iexact H6
  iexact H7

/-- The core's scoped buffers that belong to the other kernel, each whole at some contents: this kernel never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped rest and the generator register, with this kernel's accumulator as a memref owned at some contents. -/
theorem PhiA1_elim (c : Dev nD) :
    (Pipeline.ΦA spec1 c : sProp 𝕄) ⊢ iprop((∃ d, owns (c : Thread nD τ) scM1_0 fullShare d) ∗ others1 (F := F) c ∗ (∃ r, prngReg c r)) := by
  unfold Pipeline.ΦA others1; rw [scopedRest1_eq]; simp only [scM1_0, owns_whole]
  iintro ⟨⟨H1, H2, H3, H4, H5, H6, H7, HS⟩, Hg⟩
  isplitl [HS]; · iexact HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  iexact H7

theorem PhiA1_intro (c : Dev nD) :
    iprop((∃ d, owns (c : Thread nD τ) scM1_0 fullShare d) ∗ others1 (F := F) c ∗ (∃ r, prngReg c r)) ⊢ (Pipeline.ΦA spec1 c : sProp 𝕄) := by
  unfold Pipeline.ΦA others1; rw [scopedRest1_eq]; simp only [scM1_0, owns_whole]
  iintro ⟨HS, ⟨H1, H2, H3, H4, H5, H6, H7⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

end Cert.Kernel.Hand

end
-- ==== Proof.KW.Run0A.lean ====
/-
  The whole body of kernel 0 run once, in the case of the first step of the accumulation (the accumulator is reset, the output block is left alone): on whole staging memrefs holding the two input
  blocks, the body runs to its end holding the inputs as they were, and the accumulator (and, at the last step, the
  output block) with the body's stores written over it; the list of those stores is found by the run itself.
-/
import proofs.«166065_j11759620457095_2_alg».proof.Proof.KW.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : cond0_0 i) (hc1 : ¬cond0_1 i)
    (x0 : Vec F S256x512 .f32) (x1 : Vec F S512x512 .f32) :
    Σ' (L2 : List (View.Piece (Elt F) S256x512 .f32)), { LS0 : List (View.Piece (Elt F) S256x512 .f32) //
      ∀ (xi2 : Vec F S256x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KW.Run0B.lean ====
/-
  The whole body of kernel 0 run once, in the case of a middle step of the accumulation (neither reset nor copy-out): on whole staging memrefs holding the two input
  blocks, the body runs to its end holding the inputs as they were, and the accumulator (and, at the last step, the
  output block) with the body's stores written over it; the list of those stores is found by the run itself.
-/
import proofs.«166065_j11759620457095_2_alg».proof.Proof.KW.Run0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : ¬cond0_1 i)
    (x0 : Vec F S256x512 .f32) (x1 : Vec F S512x512 .f32) (xs0 : Vec F S256x512 .f32) :
    Σ' (L2 : List (View.Piece (Elt F) S256x512 .f32)), { LS0 : List (View.Piece (Elt F) S256x512 .f32) //
      ∀ (xi2 : Vec F S256x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.KW.Run0C.lean ====
/-
  The whole body of kernel 0 run once, in the case of the last step of the accumulation (the accumulator is copied to the output block): on whole staging memrefs holding the two input
  blocks, the body runs to its end holding the inputs as they were, and the accumulator (and, at the last step, the
  output block) with the body's stores written over it; the list of those stores is found by the run itself.
-/
import proofs.«166065_j11759620457095_2_alg».proof.Proof.KW.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) :
    Σ' (L2 : List (View.Piece (Elt F) S256x512 .f32)), { LS0 : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KW.Reg0.lean ====
/-
  Kernel 0 over its whole grid: what each case of the body leaves in the output block and in the accumulator
  (its stores read back), the accumulation point by point (the accumulator after point n is the case's value over
  what point n − 1 left), the region's invariant (the accumulator at that value between points), the pipeline's
  proof data and the body obligation at every point.
-/
import proofs.«166065_j11759620457095_2_alg».proof.Proof.KW.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output window's staging buffer: its stores read back (none: a placeholder nothing consults, the window being idle there). -/
def out0_A_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : cond0_0 i) (hc1 : ¬cond0_1 i)
    (x0 : Vec F S256x512 .f32) (x1 : Vec F S512x512 .f32) : Vec F S256x512 .f32 :=
  VO0_2.read (Elt F) (VO0_2.writes (Elt F) VO0_2.junk (kernelRun0_A c i arg3 harg3 arg4 harg4 arg5 harg5 arg6 harg6 hc0 hc1 x0 x1).1)

/-- Case A's stores into the accumulator tile it, so they cover it. -/
theorem scover0_A_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : cond0_0 i) (hc1 : ¬cond0_1 i)
    (x0 : Vec F S256x512 .f32) (x1 : Vec F S512x512 .f32) (y : S256x512.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S256x512.size (by sl_kernel_rfl) y

/-- What case A leaves in the accumulator: its stores read back. -/
def sout0_A_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : cond0_0 i) (hc1 : ¬cond0_1 i)
    (x0 : Vec F S256x512 .f32) (x1 : Vec F S512x512 .f32) : Vec F S256x512 .f32 :=
  VS0_0.read (Elt F) (VS0_0.writes (Elt F) VS0_0.junk (kernelRun0_A c i arg3 harg3 arg4 harg4 arg5 harg5 arg6 harg6 hc0 hc1 x0 x1).2.1)

/-- What case B leaves in the output window's staging buffer: its stores read back (none: a placeholder nothing consults, the window being idle there). -/
def out0_B_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : ¬cond0_1 i)
    (x0 : Vec F S256x512 .f32) (x1 : Vec F S512x512 .f32) (xs0 : Vec F S256x512 .f32) : Vec F S256x512 .f32 :=
  VO0_2.read (Elt F) (VO0_2.writes (Elt F) VO0_2.junk (kernelRun0_B c i arg3 harg3 arg4 harg4 arg5 harg5 arg6 harg6 hc0 hc1 x0 x1 xs0).1)

/-- Case B's stores into the accumulator tile it, so they cover it. -/
theorem scover0_B_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : ¬cond0_1 i)
    (x0 : Vec F S256x512 .f32) (x1 : Vec F S512x512 .f32) (xs0 : Vec F S256x512 .f32) (y : S256x512.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S256x512.size (by sl_kernel_rfl) y

/-- What case B leaves in the accumulator: its stores read back. -/
def sout0_B_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : ¬cond0_1 i)
    (x0 : Vec F S256x512 .f32) (x1 : Vec F S512x512 .f32) (xs0 : Vec F S256x512 .f32) : Vec F S256x512 .f32 :=
  VS0_0.read (Elt F) (VS0_0.writes (Elt F) VS0_0.junk (kernelRun0_B c i arg3 harg3 arg4 harg4 arg5 harg5 arg6 harg6 hc0 hc1 x0 x1 xs0).2.1)

/-- What case C leaves in the output window's staging buffer: its stores read back. -/
def out0_C_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) : Vec F S256x512 .f32 :=
  VO0_2.read (Elt F) (VO0_2.writes (Elt F) VO0_2.junk (kernelRun0_C c i arg3 harg3 arg4 harg4 arg5 harg5 arg6 harg6 hc0 hc1 x0 x1 xs0).1)

/-- Case C's stores into the output block tile it, so they cover it. -/
theorem cover0_C_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) (y : S256x512.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S256x512.size (by sl_kernel_rfl) y

/-- Case C's stores into the accumulator tile it, so they cover it. -/
theorem scover0_C_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) (y : S256x512.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S256x512.size (by sl_kernel_rfl) y

/-- What case C leaves in the accumulator: its stores read back. -/
def sout0_C_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) : Vec F S256x512 .f32 :=
  VS0_0.read (Elt F) (VS0_0.writes (Elt F) VS0_0.junk (kernelRun0_C c i arg3 harg3 arg4 harg4 arg5 harg5 arg6 harg6 hc0 hc1 x0 x1 xs0).2.1)

section Regions
variable (V : (c : Dev nD) → (b : Ref sig .tc) → Buf (Elt F) ((c : Thread nD τ).loc b))

/-! ## What the output block and the accumulator hold after each point -/

/-- THE ACCUMULATION: after the body at position `n`, (the output window's staging buffer, the accumulator): the case
    the position is in, run at the point's memrefs and input blocks, over what position `n - 1` left in the accumulator. -/
def outsAt0 (c : Dev nD) : (n : ℕ) → n < cfg0.N → Vec F S256x512 .f32 × Vec F S256x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by have hN : n + 1 < 16 := lt_of_lt_of_eq hn (show cfg0.N = 16 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything and the generator
    register; afterwards the accumulator at what the point before left, the other kernel's scoped buffers at anything,
    the generator register at some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ others0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 (F := F) c ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_elim (F := F) c) $$ HΦ
        icases HΦ' with ⟨HS0, Hoth, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      by_cases hz : t.val = 0
      · exfalso; have hN : t.val < 16 := lt_of_lt_of_eq t.isLt (show cfg0.N = 16 from N_0); omega
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0]
          · unfold owns; iexists _; isplitr
            swap; · iexact HS0
            ipureintro; exact View.read_writes_of_cover _ _ _ _ _ (scover0_C_0 c _ _ _ _ _ _ _ _ _ _ _ _ _ _)
          isplitl [Hoth]; · iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      by_cases hz : t.val = 0
      · exfalso; have hN : t.val < 16 := lt_of_lt_of_eq t.isLt (show cfg0.N = 16 from N_0); omega
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_B_0 c _ _ _ _ _ _ _ _ _ _ _ _ _ _)
          isplitl [Hoth]; · iexact Hoth
          iexact Hg
        isplitl [Ho]; · iexact Ho
        isplitl [H0]; · iexact H0
        isplitl [H1]; · iexact H1
        iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  iintro ⟨HS0, Hoth, Hg⟩
  iapply (PhiA0_intro (F := F) c)
  isplitl [HS0]; · iexists _; iexact HS0
  isplitl [Hoth]; · iexact Hoth
  iexact Hg

end Regions

end Cert.Kernel.Hand

end
-- ==== Proof.KW.Run1A.lean ====
/-
  The whole body of kernel 1 run once, in the case of the first step of the accumulation (the accumulator is reset, the output block is left alone): on whole staging memrefs holding the two input
  blocks, the body runs to its end holding the inputs as they were, and the accumulator (and, at the last step, the
  output block) with the body's stores written over it; the list of those stores is found by the run itself.
-/
import proofs.«166065_j11759620457095_2_alg».proof.Proof.KW.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x32 .f32) (x1 : Vec F S64x32x128 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_exp_sum_kernel i arg2 harg2 arg3 harg3 arg4 harg4 arg5 harg5) K } := by
  refine ⟨[], ?_, fun xi2 E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KW.Run1C.lean ====
/-
  The whole body of kernel 1 run once, in the case of the last step of the accumulation (the accumulator is copied to the output block): on whole staging memrefs holding the two input
  blocks, the body runs to its end holding the inputs as they were, and the accumulator (and, at the last step, the
  output block) with the body's stores written over it; the list of those stores is found by the run itself.
-/
import proofs.«166065_j11759620457095_2_alg».proof.Proof.KW.Run1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__l1_exp_sum_kernel i arg2 harg2 arg3 harg3 arg4 harg4 arg5 harg5) K } := by
  refine ⟨?_, ?_, fun E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KW.Reg1.lean ====
/-
  Kernel 1 over its whole grid: what each case of the body leaves in the output block and in the accumulator
  (its stores read back), the accumulation point by point (the accumulator after point n is the case's value over
  what point n − 1 left), the region's invariant (the accumulator at that value between points), the pipeline's
  proof data and the body obligation at every point.
-/
import proofs.«166065_j11759620457095_2_alg».proof.Proof.KW.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the output window's staging buffer: its stores read back (none: a placeholder nothing consults, the window being idle there). -/
def out1_A_2 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x32 .f32) (x1 : Vec F S64x32x128 .f32) : Vec F S128x64 .f32 :=
  VO1_2.read (Elt F) (VO1_2.writes (Elt F) VO1_2.junk (kernelRun1_A c i arg2 harg2 arg3 harg3 arg4 harg4 arg5 harg5 hc0 hc1 x0 x1).1)

/-- Case A's stores into the accumulator tile it, so they cover it. -/
theorem scover1_A_0 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x32 .f32) (x1 : Vec F S64x32x128 .f32) (y : S128x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S128x64.size (by sl_kernel_rfl) y

/-- What case A leaves in the accumulator: its stores read back. -/
def sout1_A_0 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x32 .f32) (x1 : Vec F S64x32x128 .f32) : Vec F S128x64 .f32 :=
  VS1_0.read (Elt F) (VS1_0.writes (Elt F) VS1_0.junk (kernelRun1_A c i arg2 harg2 arg3 harg3 arg4 harg4 arg5 harg5 hc0 hc1 x0 x1).2.1)

/-- What case C leaves in the output window's staging buffer: its stores read back. -/
def out1_C_2 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

/-- Case C's stores into the output block tile it, so they cover it. -/
theorem cover1_C_2 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- Case C's stores into the accumulator tile it, so they cover it. -/
theorem scover1_C_0 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

/-- What case C leaves in the accumulator: its stores read back. -/
def sout1_C_0 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

section Regions
variable (V : (c : Dev nD) → (b : Ref sig .tc) → Buf (Elt F) ((c : Thread nD τ).loc b))

/-! ## What the output block and the accumulator hold after each point -/

/-- THE ACCUMULATION: after the body at position `n`, (the output window's staging buffer, the accumulator): the case
    the position is in, run at the point's memrefs and input blocks, over what position `n - 1` left in the accumulator. -/
def outsAt1 (c : Dev nD) : (n : ℕ) → n < cfg1.N → Vec F S128x64 .f32 × Vec F S128x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 2 = 0 then
      if h1 : (n + 1) % 2 = 1 then
        False.elim (by have hN : n + 1 < 4 := lt_of_lt_of_eq hn (show cfg1.N = 4 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 2 = 1 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        False.elim (by have hN : n + 1 < 4 := lt_of_lt_of_eq hn (show cfg1.N = 4 from N_1); omega)

theorem outsAt1_A (c : Dev nD) (t : Fin cfg1.N) (h0 : t.val % 2 = 0) (h1 : ¬t.val % 2 = 1) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_C (c : Dev nD) (t : Fin cfg1.N) (h0 : ¬t.val % 2 = 0) (h1 : t.val % 2 = 1) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything and the generator
    register; afterwards the accumulator at what the point before left, the other kernel's scoped buffers at anything,
    the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  by_cases h0 : t.val % 2 = 0
  · by_cases h1 : t.val % 2 = 1
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_elim (F := F) c) $$ HΦ
        icases HΦ' with ⟨HS0, Hoth, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · by_cases h1 : t.val % 2 = 1
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      by_cases hz : t.val = 0
      · exfalso; have hN : t.val < 4 := lt_of_lt_of_eq t.isLt (show cfg1.N = 4 from N_1); omega
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0]
          · unfold owns; iexists _; isplitr
            swap; · iexact HS0
            ipureintro; exact View.read_writes_of_cover _ _ _ _ _ (scover1_C_0 c _ _ _ _ _ _ _ _ _ _ _ _ _ _)
          isplitl [Hoth]; · iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · exfalso; have hN : t.val < 4 := lt_of_lt_of_eq t.isLt (show cfg1.N = 4 from N_1); omega

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 4 := N_1; omega)]
  iintro ⟨HS0, Hoth, Hg⟩
  iapply (PhiA1_intro (F := F) c)
  isplitl [HS0]; · iexists _; iexact HS0
  isplitl [Hoth]; · iexact Hoth
  iexact Hg

end Regions

end Cert.Kernel.Hand

end
-- ==== Proof.KW.Main.lean ====
/-
  The program's run from launch to return, at any float instance: the buffers' contents at each boundary between
  the host stretches and the two kernel regions (a fold from the launch memory: a stretch's operations applied, a
  region's arrays at what its write-backs leave), the two regions as segments entered from and left at those
  contents, and the run itself — every weakly fair execution terminates, nothing faulting, and every unscoped buffer
  ends at the last boundary's contents; the argument arrays among them are read back to their launch contents.
-/
import proofs.«166065_j11759620457095_2_alg».proof.Proof.KW.Reg0
import proofs.«166065_j11759620457095_2_alg».proof.Proof.KW.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- No operation of the host stretches allocates a buffer. -/
theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
/-- The buffers the first host stretch writes (the table read as a matrix) and the second (the product read as a
    three-axis table, and its transpose). -/
abbrev ops0_W : List (Ref sig .tc) := [main_v0]
theorem ops0_writes : (hostOps0 : List (HloOp τ sig (Elt F))).Forall fun op => op.writes ⊆ (ops0_W.map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact List.mem_map_of_mem (by decide))
abbrev ops1_W : List (Ref sig .tc) := [main_v2, main_v3]
theorem ops1_writes : (hostOps1 : List (HloOp τ sig (Elt F))).Forall fun op => op.writes ⊆ (ops1_W.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩

/-- No operation of a host stretch writes the buffer `b`, so the stretch leaves it as it was. -/
theorem W1_of (c : Dev nD) (b : Ref sig .tc) (h : b ∉ ops0_W) : W1 m ρ c (Proc.devRef .tc b) = W0 m ρ c (Proc.devRef .tc b) :=
  StableHlo.after_of_writes_sub hostOps0 _ ops0_writes h
theorem W3_of (c : Dev nD) (b : Ref sig .tc) (h : b ∉ ops1_W) : W3 m ρ c (Proc.devRef .tc b) = W2 m ρ c (Proc.devRef .tc b) :=
  StableHlo.after_of_writes_sub hostOps1 _ ops1_writes h

/-- The first argument (the [256, 2048] matrix) ends as launched: no host stretch writes it, the first region reads
    it through an input window, the second bypasses it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The second argument (the [2048, 64, 32] table) ends as launched: only read by the first host stretch. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm' (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (V1 m ρ) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm' (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V3 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V3 m ρ) c).trans h2
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any float instance: the program runs to its end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.Kernel.Hand

end
-- ==== Proof.KI.Base.lean ====
/-
  What the two kernels' runs are stated over, for the program read at any float instance: each window's block at a
  grid point, read off its array as the region finds it; that an input window's staging buffer holds its block at
  every point; the two conditions each body branches on (the first and the last step of its innermost grid axis),
  decided over the grid; where the output window is idle (every point but the last of an accumulation) and where it
  is written back; the staging and scratch memrefs; the scoped rest with the accumulator scratch as a memref.
-/
import proofs.«166065_j11759620457095_2_alg».proof.Proof.Gen.KernelIdeal.Launch
import proofs.«166065_j11759620457095_2_alg».proof.Proof.Gen.KernelIdeal.Skeleton
import proofs.«166065_j11759620457095_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first kernel (the matrix product accumulated over the contraction blocks) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! # The second kernel (the pairwise distances, exponentiated and summed over the lanes) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The first kernel's branch conditions, decided over its 1 × 4 × 4 grid (the contraction axis innermost) -/

/-- "This is the first contraction block": the accumulator is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last contraction block": the accumulator is copied to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last contraction block the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev VO0_2 : View sig .tc .vmem S256x512 .f32 := (Memref.whole cc0_stg2_0 : Memref sig .tc .vmem S256x512 .f32).view
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
/-- The accumulator: a whole scoped buffer of the kernel's own, carried from one grid point to the next. -/
abbrev scM0_0 : Memref sig .tc .vmem S256x512 .f32 := Memref.whole cc0_scratch0
abbrev VS0_0 : View sig .tc .vmem S256x512 .f32 := scM0_0.view

/-! ## The second kernel's branch conditions, decided over its 2 × 2 grid (the lane tiles innermost) -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev VO1_2 : View sig .tc .vmem S128x64 .f32 := (Memref.whole cc1_stg2_0 : Memref sig .tc .vmem S128x64 .f32).view
abbrev ms1_0 (t : Fin cfg1.N) : Memref sig .tc .vmem S128x64x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev scM1_0 : Memref sig .tc .vmem S128x64 .f32 := Memref.whole cc1_scratch0
abbrev VS1_0 : View sig .tc .vmem S128x64 .f32 := scM1_0.view

/-- The core's scoped buffers that belong to the other kernel, each whole at some contents: this kernel never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped rest and the generator register, with this kernel's accumulator as a memref owned at some contents. -/
theorem PhiA0_elim (c : Dev nD) :
    (Pipeline.ΦA spec0 c : sProp 𝕄) ⊢ iprop((∃ d, owns (c : Thread nD τ) scM0_0 fullShare d) ∗ others0 (F := F) c ∗ (∃ r, prngReg c r)) := by
  unfold Pipeline.ΦA others0; rw [scopedRest0_eq]; simp only [scM0_0, owns_whole]
  iintro ⟨⟨HS, H1, H2, H3, H4, H5, H6, H7⟩, Hg⟩
  isplitl [HS]; · iexact HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  iexact H7

theorem PhiA0_intro (c : Dev nD) :
    iprop((∃ d, owns (c : Thread nD τ) scM0_0 fullShare d) ∗ others0 (F := F) c ∗ (∃ r, prngReg c r)) ⊢ (Pipeline.ΦA spec0 c : sProp 𝕄) := by
  unfold Pipeline.ΦA others0; rw [scopedRest0_eq]; simp only [scM0_0, owns_whole]
  iintro ⟨HS, ⟨H1, H2, H3, H4, H5, H6, H7⟩, Hg⟩
  isplitr [Hg]
  swap; · iexact Hg
  isplitl [HS]; · iexact HS
  isplitl [H1]; · iexact H1
  isplitl [H2]; · iexact H2
  isplitl [H3]; · iexact H3
  isplitl [H4]; · iexact H4
  isplitl [H5]; · iexact H5
  isplitl [H6]; · iexact H6
  iexact H7

/-- The core's scoped buffers that belong to the other kernel, each whole at some contents: this kernel never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped rest and the generator register, with this kernel's accumulator as a memref owned at some contents. -/
theorem PhiA1_elim (c : Dev nD) :
    (Pipeline.ΦA spec1 c : sProp 𝕄) ⊢ iprop((∃ d, owns (c : Thread nD τ) scM1_0 fullShare d) ∗ others1 (F := F) c ∗ (∃ r, prngReg c r)) := by
  unfold Pipeline.ΦA others1; rw [scopedRest1_eq]; simp only [scM1_0, owns_whole]
  iintro ⟨⟨H1, H2, H3, H4, H5, H6, H7, HS⟩, Hg⟩
  isplitl [HS]; · iexact HS
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  iexact H7

theorem PhiA1_intro (c : Dev nD) :
    iprop((∃ d, owns (c : Thread nD τ) scM1_0 fullShare d) ∗ others1 (F := F) c ∗ (∃ r, prngReg c r)) ⊢ (Pipeline.ΦA spec1 c : sProp 𝕄) := by
  unfold Pipeline.ΦA others1; rw [scopedRest1_eq]; simp only [scM1_0, owns_whole]
  iintro ⟨HS, ⟨H1, H2, H3, H4, H5, H6, H7⟩, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

end Cert.KernelIdeal.Hand

end
-- ==== Proof.KI.Run0A.lean ====
/-
  The whole body of kernel 0 run once, in the case of the first step of the accumulation (the accumulator is reset, the output block is left alone): on whole staging memrefs holding the two input
  blocks, the body runs to its end holding the inputs as they were, and the accumulator (and, at the last step, the
  output block) with the body's stores written over it; the list of those stores is found by the run itself.
-/
import proofs.«166065_j11759620457095_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : cond0_0 i) (hc1 : ¬cond0_1 i)
    (x0 : Vec F S256x512 .f32) (x1 : Vec F S512x512 .f32) :
    Σ' (L2 : List (View.Piece (Elt F) S256x512 .f32)), { LS0 : List (View.Piece (Elt F) S256x512 .f32) //
      ∀ (xi2 : Vec F S256x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.Run0B.lean ====
/-
  The whole body of kernel 0 run once, in the case of a middle step of the accumulation (neither reset nor copy-out): on whole staging memrefs holding the two input
  blocks, the body runs to its end holding the inputs as they were, and the accumulator (and, at the last step, the
  output block) with the body's stores written over it; the list of those stores is found by the run itself.
-/
import proofs.«166065_j11759620457095_2_alg».proof.Proof.KI.Run0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : ¬cond0_1 i)
    (x0 : Vec F S256x512 .f32) (x1 : Vec F S512x512 .f32) (xs0 : Vec F S256x512 .f32) :
    Σ' (L2 : List (View.Piece (Elt F) S256x512 .f32)), { LS0 : List (View.Piece (Elt F) S256x512 .f32) //
      ∀ (xi2 : Vec F S256x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.Run0C.lean ====
/-
  The whole body of kernel 0 run once, in the case of the last step of the accumulation (the accumulator is copied to the output block): on whole staging memrefs holding the two input
  blocks, the body runs to its end holding the inputs as they were, and the accumulator (and, at the last step, the
  output block) with the body's stores written over it; the list of those stores is found by the run itself.
-/
import proofs.«166065_j11759620457095_2_alg».proof.Proof.KI.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) :
    Σ' (L2 : List (View.Piece (Elt F) S256x512 .f32)), { LS0 : List (View.Piece (Elt F) S256x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.Reg0.lean ====
/-
  Kernel 0 over its whole grid: what each case of the body leaves in the output block and in the accumulator
  (its stores read back), the accumulation point by point (the accumulator after point n is the case's value over
  what point n − 1 left), the region's invariant (the accumulator at that value between points), the pipeline's
  proof data and the body obligation at every point.
-/
import proofs.«166065_j11759620457095_2_alg».proof.Proof.KI.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output window's staging buffer: its stores read back (none: a placeholder nothing consults, the window being idle there). -/
def out0_A_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : cond0_0 i) (hc1 : ¬cond0_1 i)
    (x0 : Vec F S256x512 .f32) (x1 : Vec F S512x512 .f32) : Vec F S256x512 .f32 :=
  VO0_2.read (Elt F) (VO0_2.writes (Elt F) VO0_2.junk (kernelRun0_A c i arg3 harg3 arg4 harg4 arg5 harg5 arg6 harg6 hc0 hc1 x0 x1).1)

/-- Case A's stores into the accumulator tile it, so they cover it. -/
theorem scover0_A_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : cond0_0 i) (hc1 : ¬cond0_1 i)
    (x0 : Vec F S256x512 .f32) (x1 : Vec F S512x512 .f32) (y : S256x512.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S256x512.size (by sl_kernel_rfl) y

/-- What case A leaves in the accumulator: its stores read back. -/
def sout0_A_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : cond0_0 i) (hc1 : ¬cond0_1 i)
    (x0 : Vec F S256x512 .f32) (x1 : Vec F S512x512 .f32) : Vec F S256x512 .f32 :=
  VS0_0.read (Elt F) (VS0_0.writes (Elt F) VS0_0.junk (kernelRun0_A c i arg3 harg3 arg4 harg4 arg5 harg5 arg6 harg6 hc0 hc1 x0 x1).2.1)

/-- What case B leaves in the output window's staging buffer: its stores read back (none: a placeholder nothing consults, the window being idle there). -/
def out0_B_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : ¬cond0_1 i)
    (x0 : Vec F S256x512 .f32) (x1 : Vec F S512x512 .f32) (xs0 : Vec F S256x512 .f32) : Vec F S256x512 .f32 :=
  VO0_2.read (Elt F) (VO0_2.writes (Elt F) VO0_2.junk (kernelRun0_B c i arg3 harg3 arg4 harg4 arg5 harg5 arg6 harg6 hc0 hc1 x0 x1 xs0).1)

/-- Case B's stores into the accumulator tile it, so they cover it. -/
theorem scover0_B_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : ¬cond0_1 i)
    (x0 : Vec F S256x512 .f32) (x1 : Vec F S512x512 .f32) (xs0 : Vec F S256x512 .f32) (y : S256x512.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S256x512.size (by sl_kernel_rfl) y

/-- What case B leaves in the accumulator: its stores read back. -/
def sout0_B_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : ¬cond0_1 i)
    (x0 : Vec F S256x512 .f32) (x1 : Vec F S512x512 .f32) (xs0 : Vec F S256x512 .f32) : Vec F S256x512 .f32 :=
  VS0_0.read (Elt F) (VS0_0.writes (Elt F) VS0_0.junk (kernelRun0_B c i arg3 harg3 arg4 harg4 arg5 harg5 arg6 harg6 hc0 hc1 x0 x1 xs0).2.1)

/-- What case C leaves in the output window's staging buffer: its stores read back. -/
def out0_C_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) : Vec F S256x512 .f32 :=
  VO0_2.read (Elt F) (VO0_2.writes (Elt F) VO0_2.junk (kernelRun0_C c i arg3 harg3 arg4 harg4 arg5 harg5 arg6 harg6 hc0 hc1 x0 x1 xs0).1)

/-- Case C's stores into the output block tile it, so they cover it. -/
theorem cover0_C_2 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) (y : S256x512.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S256x512.size (by sl_kernel_rfl) y

/-- Case C's stores into the accumulator tile it, so they cover it. -/
theorem scover0_C_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) (y : S256x512.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S256x512.size (by sl_kernel_rfl) y

/-- What case C leaves in the accumulator: its stores read back. -/
def sout0_C_0 (c : Dev nD) (i : grid0.Coords) (arg3 : Memref sig .tc .vmem S256x512 .f32) (harg3 : arg3.IsWhole) (arg4 : Memref sig .tc .vmem S512x512 .f32) (harg4 : arg4.IsWhole) (arg5 : Memref sig .tc .vmem S256x512 .f32) (harg5 : arg5.IsWhole) (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) : Vec F S256x512 .f32 :=
  VS0_0.read (Elt F) (VS0_0.writes (Elt F) VS0_0.junk (kernelRun0_C c i arg3 harg3 arg4 harg4 arg5 harg5 arg6 harg6 hc0 hc1 x0 x1 xs0).2.1)

section Regions
variable (V : (c : Dev nD) → (b : Ref sig .tc) → Buf (Elt F) ((c : Thread nD τ).loc b))

/-! ## What the output block and the accumulator hold after each point -/

/-- THE ACCUMULATION: after the body at position `n`, (the output window's staging buffer, the accumulator): the case
    the position is in, run at the point's memrefs and input blocks, over what position `n - 1` left in the accumulator. -/
def outsAt0 (c : Dev nD) : (n : ℕ) → n < cfg0.N → Vec F S256x512 .f32 × Vec F S256x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by have hN : n + 1 < 16 := lt_of_lt_of_eq hn (show cfg0.N = 16 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything and the generator
    register; afterwards the accumulator at what the point before left, the other kernel's scoped buffers at anything,
    the generator register at some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ others0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 (F := F) c ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_elim (F := F) c) $$ HΦ
        icases HΦ' with ⟨HS0, Hoth, Hg⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      by_cases hz : t.val = 0
      · exfalso; have hN : t.val < 16 := lt_of_lt_of_eq t.isLt (show cfg0.N = 16 from N_0); omega
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0]
          · unfold owns; iexists _; isplitr
            swap; · iexact HS0
            ipureintro; exact View.read_writes_of_cover _ _ _ _ _ (scover0_C_0 c _ _ _ _ _ _ _ _ _ _ _ _ _ _)
          isplitl [Hoth]; · iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      by_cases hz : t.val = 0
      · exfalso; have hN : t.val < 16 := lt_of_lt_of_eq t.isLt (show cfg0.N = 16 from N_0); omega
      · rw [PhiS0_castSucc V c t, PhiS0_pos V c _ _ hz]
        iintro ⟨⟨HS0, Hoth, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover0_B_0 c _ _ _ _ _ _ _ _ _ _ _ _ _ _)
          isplitl [Hoth]; · iexact Hoth
          iexact Hg
        isplitl [Ho]; · iexact Ho
        isplitl [H0]; · iexact H0
        isplitl [H1]; · iexact H1
        iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  iintro ⟨HS0, Hoth, Hg⟩
  iapply (PhiA0_intro (F := F) c)
  isplitl [HS0]; · iexists _; iexact HS0
  isplitl [Hoth]; · iexact Hoth
  iexact Hg

end Regions

end Cert.KernelIdeal.Hand

end
-- ==== Proof.KI.Run1A.lean ====
/-
  The whole body of kernel 1 run once, in the case of the first step of the accumulation (the accumulator is reset, the output block is left alone): on whole staging memrefs holding the two input
  blocks, the body runs to its end holding the inputs as they were, and the accumulator (and, at the last step, the
  output block) with the body's stores written over it; the list of those stores is found by the run itself.
-/
import proofs.«166065_j11759620457095_2_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x32 .f32) (x1 : Vec F S64x32x128 .f32) :
    Σ' (L2 : List (View.Piece (Elt F) S128x64 .f32)), { LS0 : List (View.Piece (Elt F) S128x64 .f32) //
      ∀ (xi2 : Vec F S128x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_exp_sum_kernel i arg2 harg2 arg3 harg3 arg4 harg4 arg5 harg5) K } := by
  refine ⟨[], ?_, fun xi2 E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Run1C.lean ====
/-
  The whole body of kernel 1 run once, in the case of the last step of the accumulation (the accumulator is copied to the output block): on whole staging memrefs holding the two input
  blocks, the body runs to its end holding the inputs as they were, and the accumulator (and, at the last step, the
  output block) with the body's stores written over it; the list of those stores is found by the run itself.
-/
import proofs.«166065_j11759620457095_2_alg».proof.Proof.KI.Run1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) :
    Σ' (L2 : List (View.Piece (Elt F) S128x64 .f32)), { LS0 : List (View.Piece (Elt F) S128x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__l1_exp_sum_kernel i arg2 harg2 arg3 harg3 arg4 harg4 arg5 harg5) K } := by
  refine ⟨?_, ?_, fun E K => ?run⟩
  case run =>
    simp only [cc1__l1_exp_sum_kernel_eq_skeleton]; unfold cc1__l1_exp_sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Reg1.lean ====
/-
  Kernel 1 over its whole grid: what each case of the body leaves in the output block and in the accumulator
  (its stores read back), the accumulation point by point (the accumulator after point n is the case's value over
  what point n − 1 left), the region's invariant (the accumulator at that value between points), the pipeline's
  proof data and the body obligation at every point.
-/
import proofs.«166065_j11759620457095_2_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the output window's staging buffer: its stores read back (none: a placeholder nothing consults, the window being idle there). -/
def out1_A_2 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x32 .f32) (x1 : Vec F S64x32x128 .f32) : Vec F S128x64 .f32 :=
  VO1_2.read (Elt F) (VO1_2.writes (Elt F) VO1_2.junk (kernelRun1_A c i arg2 harg2 arg3 harg3 arg4 harg4 arg5 harg5 hc0 hc1 x0 x1).1)

/-- Case A's stores into the accumulator tile it, so they cover it. -/
theorem scover1_A_0 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x32 .f32) (x1 : Vec F S64x32x128 .f32) (y : S128x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S128x64.size (by sl_kernel_rfl) y

/-- What case A leaves in the accumulator: its stores read back. -/
def sout1_A_0 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : cond1_0 i) (hc1 : ¬cond1_1 i)
    (x0 : Vec F S128x64x32 .f32) (x1 : Vec F S64x32x128 .f32) : Vec F S128x64 .f32 :=
  VS1_0.read (Elt F) (VS1_0.writes (Elt F) VS1_0.junk (kernelRun1_A c i arg2 harg2 arg3 harg3 arg4 harg4 arg5 harg5 hc0 hc1 x0 x1).2.1)

/-- What case C leaves in the output window's staging buffer: its stores read back. -/
def out1_C_2 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) : Vec F S128x64 .f32 :=
  VO1_2.read (Elt F) (VO1_2.writes (Elt F) VO1_2.junk (kernelRun1_C c i arg2 harg2 arg3 harg3 arg4 harg4 arg5 harg5 hc0 hc1 x0 x1 xs0).1)

/-- Case C's stores into the output block tile it, so they cover it. -/
theorem cover1_C_2 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) (y : S128x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S128x64.size (by sl_kernel_rfl) y

/-- Case C's stores into the accumulator tile it, so they cover it. -/
theorem scover1_C_0 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) (y : S128x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S128x64.size (by sl_kernel_rfl) y

/-- What case C leaves in the accumulator: its stores read back. -/
def sout1_C_0 (c : Dev nD) (i : grid1.Coords) (arg2 : Memref sig .tc .vmem S128x64x32 .f32) (harg2 : arg2.IsWhole) (arg3 : Memref sig .tc .vmem S64x32x128 .f32) (harg3 : arg3.IsWhole) (arg4 : Memref sig .tc .vmem S128x64 .f32) (harg4 : arg4.IsWhole) (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) : Vec F S128x64 .f32 :=
  VS1_0.read (Elt F) (VS1_0.writes (Elt F) VS1_0.junk (kernelRun1_C c i arg2 harg2 arg3 harg3 arg4 harg4 arg5 harg5 hc0 hc1 x0 x1 xs0).2.1)

section Regions
variable (V : (c : Dev nD) → (b : Ref sig .tc) → Buf (Elt F) ((c : Thread nD τ).loc b))

/-! ## What the output block and the accumulator hold after each point -/

/-- THE ACCUMULATION: after the body at position `n`, (the output window's staging buffer, the accumulator): the case
    the position is in, run at the point's memrefs and input blocks, over what position `n - 1` left in the accumulator. -/
def outsAt1 (c : Dev nD) : (n : ℕ) → n < cfg1.N → Vec F S128x64 .f32 × Vec F S128x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 2 = 0 then
      if h1 : (n + 1) % 2 = 1 then
        False.elim (by have hN : n + 1 < 4 := lt_of_lt_of_eq hn (show cfg1.N = 4 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 2 = 1 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        False.elim (by have hN : n + 1 < 4 := lt_of_lt_of_eq hn (show cfg1.N = 4 from N_1); omega)

theorem outsAt1_A (c : Dev nD) (t : Fin cfg1.N) (h0 : t.val % 2 = 0) (h1 : ¬t.val % 2 = 1) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_C (c : Dev nD) (t : Fin cfg1.N) (h0 : ¬t.val % 2 = 0) (h1 : t.val % 2 = 1) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scoped rest at anything and the generator
    register; afterwards the accumulator at what the point before left, the other kernel's scoped buffers at anything,
    the generator register at some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  by_cases h0 : t.val % 2 = 0
  · by_cases h1 : t.val % 2 = 1
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_elim (F := F) c) $$ HΦ
        icases HΦ' with ⟨HS0, Hoth, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _)
          isplitl [Hoth]; · iexact Hoth
          iexact Hg
        isplitl [Ho]; · iexact Ho
        isplitl [H0]; · iexact H0
        isplitl [H1]; · iexact H1
        iexists _; iexact H2
  · by_cases h1 : t.val % 2 = 1
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      by_cases hz : t.val = 0
      · exfalso; have hN : t.val < 4 := lt_of_lt_of_eq t.isLt (show cfg1.N = 4 from N_1); omega
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0]
          · unfold owns; iexists _; isplitr
            swap; · iexact HS0
            ipureintro; exact View.read_writes_of_cover _ _ _ _ _ (scover1_C_0 c _ _ _ _ _ _ _ _ _ _ _ _ _ _)
          isplitl [Hoth]; · iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · exfalso; have hN : t.val < 4 := lt_of_lt_of_eq t.isLt (show cfg1.N = 4 from N_1); omega

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 4 := N_1; omega)]
  iintro ⟨HS0, Hoth, Hg⟩
  iapply (PhiA1_intro (F := F) c)
  isplitl [HS0]; · iexists _; iexact HS0
  isplitl [Hoth]; · iexact Hoth
  iexact Hg

end Regions

end Cert.KernelIdeal.Hand

end
-- ==== Proof.KI.Main.lean ====
/-
  The program's run from launch to return, at any float instance: the buffers' contents at each boundary between
  the host stretches and the two kernel regions (a fold from the launch memory: a stretch's operations applied, a
  region's arrays at what its write-backs leave), the two regions as segments entered from and left at those
  contents, and the run itself — every weakly fair execution terminates, nothing faulting, and every unscoped buffer
  ends at the last boundary's contents; the argument arrays among them are read back to their launch contents.
-/
import proofs.«166065_j11759620457095_2_alg».proof.Proof.KI.Reg0
import proofs.«166065_j11759620457095_2_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- No operation of the host stretches allocates a buffer. -/
theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
/-- The buffers the first host stretch writes (the table read as a matrix) and the second (the product read as a
    three-axis table, and its transpose). -/
abbrev ops0_W : List (Ref sig .tc) := [main_v0]
theorem ops0_writes : (hostOps0 : List (HloOp τ sig (Elt F))).Forall fun op => op.writes ⊆ (ops0_W.map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact List.mem_map_of_mem (by decide))
abbrev ops1_W : List (Ref sig .tc) := [main_v2, main_v3]
theorem ops1_writes : (hostOps1 : List (HloOp τ sig (Elt F))).Forall fun op => op.writes ⊆ (ops1_W.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩

/-- No operation of a host stretch writes the buffer `b`, so the stretch leaves it as it was. -/
theorem W1_of (c : Dev nD) (b : Ref sig .tc) (h : b ∉ ops0_W) : W1 m ρ c (Proc.devRef .tc b) = W0 m ρ c (Proc.devRef .tc b) :=
  StableHlo.after_of_writes_sub hostOps0 _ ops0_writes h
theorem W3_of (c : Dev nD) (b : Ref sig .tc) (h : b ∉ ops1_W) : W3 m ρ c (Proc.devRef .tc b) = W2 m ρ c (Proc.devRef .tc b) :=
  StableHlo.after_of_writes_sub hostOps1 _ ops1_writes h

/-- The first argument (the [256, 2048] matrix) ends as launched: no host stretch writes it, the first region reads
    it through an input window, the second bypasses it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The second argument (the [2048, 64, 32] table) ends as launched: only read by the first host stretch. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm' (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (V1 m ρ) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V1 m ρ) c).trans h2
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm' (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V3 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V3 m ρ) c).trans h2
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any float instance: the program runs to its end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.KI.Body1.lean ====
/-
  The value the second kernel's body adds into its accumulator at one grid point, as one function of the two
  input blocks and of the accumulator's contents: the thirty-two |q − k| terms summed along the last axis of the
  [128, 64, 32] block, negated, exponentiated, summed over the 128 lanes, added to the accumulator.
-/
import proofs.«166065_j11759620457095_2_alg».proof.Proof.Gen.KernelIdeal.Skeleton

noncomputable section

namespace Cert.KernelIdeal.Hand

open Idealize.ShloMosaic Cert.KernelIdeal Cert.KernelIdeal.Gen

variable {F : FTy → Type} [FloatOps F]

/-- The body's stored value from its three loads: the [128, 64, 32] block `v3`, the [64, 32, 128] block `v5` and the
    accumulator `v363`, through the body's named intermediate values in the order the body computes them. -/
def body1 (v3 : Vec F S128x64x32 .f32) (v5 : Vec F S64x32x128 .f32) (v363 : Vec F S128x64 .f32) : FVec F S128x64 .f32 :=
  k1_pay1 (k1_pay3 v3) (k1_pay4 v5)
    (k1_pay17 (k1_pay3 v3) (k1_pay4 v5)
      (k1_pay14 (k1_pay3 v3) (k1_pay4 v5)
        (k1_pay13 (k1_pay3 v3) (k1_pay4 v5)
          (k1_pay10 (k1_pay3 v3) (k1_pay4 v5)
            (k1_pay8 (k1_pay3 v3) (k1_pay4 v5) (k1_pay5 v3 v5) (k1_pay6 v5) (k1_pay7 v3))
            (k1_pay9 (k1_pay3 v3)))
          (k1_pay11 (k1_pay3 v3)) (k1_pay12 (k1_pay4 v5))))
      (k1_pay15 (k1_pay4 v5)) (k1_pay16 (k1_pay3 v3)))
    (k1_pay18 (k1_pay3 v3) (k1_pay4 v5))
    v363

end Cert.KernelIdeal.Hand

end
-- ==== Proof.KI.Pieces.lean ====
/-
  What each case of the two kernel bodies leaves behind, as a value of the blocks it loaded. A body loads and stores
  its staging buffers whole (through the rectangle at zero offsets of the buffer's own sizes), so the contents its
  stores leave are the payload of its last store, a load reads the block as it is, and a load after a store reads that
  store's payload. Matrix-product kernel: the first step along the contraction axis leaves, in the accumulator, the
  step's value over the zero block; every later step leaves the step's value over what the accumulator held; the last
  step copies that to the output block. Distance kernel: likewise with its own step (the sum over one tile of rows of
  the exponentials, added to the accumulator), the first tile starting from the zero block, the last tile copying the
  accumulator to the output block. Generic in the float instance.
-/
import proofs.«166065_j11759620457095_2_alg».proof.Proof.KI.Reg0
import proofs.«166065_j11759620457095_2_alg».proof.Proof.KI.Reg1
import proofs.«166065_j11759620457095_2_alg».proof.Proof.KI.Body1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen

variable {F : FTy → Type} [FloatOps F]

/-- The zero offsets of a rank-2 block. -/
private theorem hz2 : (![0, 0] : Fin 2 → Nat) = fun _ => 0 := funext fun a => by fin_cases a <;> rfl
/-- The zero offsets of a rank-3 block. -/
private theorem hz3 : (![0, 0, 0] : Fin 3 → Nat) = fun _ => 0 := funext fun a => by fin_cases a <;> rfl

/-! ## The matrix-product kernel -/

/-- First step: the accumulator is zeroed, read back, and left at the step's value over the zero block. -/
theorem sout0_A_0_eq (c : Dev nD) (i : grid0.Coords) (arg3 : Memref sig .tc .vmem S256x512 .f32) (harg3 : arg3.IsWhole)
    (arg4 : Memref sig .tc .vmem S512x512 .f32) (harg4 : arg4.IsWhole) (arg5 : Memref sig .tc .vmem S256x512 .f32) (harg5 : arg5.IsWhole)
    (arg6 : Memref sig .tc .vmem S256x512 .f32) (harg6 : arg6.IsWhole) (hc0 : cond0_0 i) (hc1 : ¬cond0_1 i)
    (x0 : Vec F S256x512 .f32) (x1 : Vec F S512x512 .f32) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S256x512) hz2, View.readCov_unit_zero (S := S256x512) _ hz2]
  simp only [View.readAt_eq_ld, harg3.read_unread, harg4.read_unread, harg6.read_unread,
    View.ld_unit_zero (S := S256x512) hz2, View.ld_unit_zero (S := S512x512) hz2]

/-- A middle step: the accumulator is left at the step's value over what it held. -/
theorem sout0_B_0_eq (c : Dev nD) (i : grid0.Coords) (arg3 : Memref sig .tc .vmem S256x512 .f32) (harg3 : arg3.IsWhole)
    (arg4 : Memref sig .tc .vmem S512x512 .f32) (harg4 : arg4.IsWhole) (arg5 : Memref sig .tc .vmem S256x512 .f32) (harg5 : arg5.IsWhole)
    (arg6 : Memref sig .tc .vmem S256x512 .f32) (harg6 : arg6.IsWhole) (hc0 : ¬cond0_0 i) (hc1 : ¬cond0_1 i)
    (x0 : Vec F S256x512 .f32) (x1 : Vec F S512x512 .f32) (xs0 : Vec F S256x512 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero (S := S256x512) hz2]
  simp only [View.readAt_eq_ld, harg3.read_unread, harg4.read_unread, harg6.read_unread,
    View.ld_unit_zero (S := S256x512) hz2, View.ld_unit_zero (S := S512x512) hz2]

/-- The last step: the accumulator is left at the step's value over what it held … -/
theorem sout0_C_0_eq (c : Dev nD) (i : grid0.Coords) (arg3 : Memref sig .tc .vmem S256x512 .f32) (harg3 : arg3.IsWhole)
    (arg4 : Memref sig .tc .vmem S512x512 .f32) (harg4 : arg4.IsWhole) (arg5 : Memref sig .tc .vmem S256x512 .f32) (harg5 : arg5.IsWhole)
    (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S256x512) hz2]
  simp only [View.readAt_eq_ld, harg3.read_unread, harg4.read_unread, harg6.read_unread,
    View.ld_unit_zero (S := S256x512) hz2, View.ld_unit_zero (S := S512x512) hz2]

/-- … and the output block receives the same value, read back from the accumulator. -/
theorem out0_C_2_eq (c : Dev nD) (i : grid0.Coords) (arg3 : Memref sig .tc .vmem S256x512 .f32) (harg3 : arg3.IsWhole)
    (arg4 : Memref sig .tc .vmem S512x512 .f32) (harg4 : arg4.IsWhole) (arg5 : Memref sig .tc .vmem S256x512 .f32) (harg5 : arg5.IsWhole)
    (arg6 : Memref sig .tc .vmem S256x512 .f32) (harg6 : arg6.IsWhole) (hc0 : ¬cond0_0 i) (hc1 : cond0_1 i)
    (x0 : Vec F S256x512 .f32) (x1 : Vec F S512x512 .f32) (xs0 : Vec F S256x512 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S256x512) hz2, View.readCov_unit_zero (S := S256x512) _ hz2]
  simp only [View.readAt_eq_ld, harg3.read_unread, harg4.read_unread, harg6.read_unread,
    View.ld_unit_zero (S := S256x512) hz2, View.ld_unit_zero (S := S512x512) hz2]

/-! ## The distance kernel -/

/-- First tile of rows: the accumulator is zeroed, read back, and left at the step's value over the zero block. -/
theorem sout1_A_0_eq (c : Dev nD) (i : grid1.Coords) (arg2 : Memref sig .tc .vmem S128x64x32 .f32) (harg2 : arg2.IsWhole)
    (arg3 : Memref sig .tc .vmem S64x32x128 .f32) (harg3 : arg3.IsWhole) (arg4 : Memref sig .tc .vmem S128x64 .f32) (harg4 : arg4.IsWhole)
    (arg5 : Memref sig .tc .vmem S128x64 .f32) (harg5 : arg5.IsWhole) (hc0 : cond1_0 i) (hc1 : ¬cond1_1 i)
    (x0 : Vec F S128x64x32 .f32) (x1 : Vec F S64x32x128 .f32) :
    sout1_A_0 c i arg2 harg2 arg3 harg3 arg4 harg4 arg5 harg5 hc0 hc1 x0 x1 = body1 x0 x1 (k1_pay2 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S128x64) hz2, View.readCov_unit_zero (S := S128x64) _ hz2]
  unfold body1
  simp only [View.readAt_eq_ld, harg2.read_unread, harg3.read_unread, harg5.read_unread,
    View.ld_unit_zero (S := S128x64x32) hz3, View.ld_unit_zero (S := S64x32x128) hz3, View.ld_unit_zero (S := S128x64) hz2]

/-- Last tile of rows: the accumulator is left at the step's value over what it held … -/
theorem sout1_C_0_eq (c : Dev nD) (i : grid1.Coords) (arg2 : Memref sig .tc .vmem S128x64x32 .f32) (harg2 : arg2.IsWhole)
    (arg3 : Memref sig .tc .vmem S64x32x128 .f32) (harg3 : arg3.IsWhole) (arg4 : Memref sig .tc .vmem S128x64 .f32) (harg4 : arg4.IsWhole)
    (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) :
    sout1_C_0 c i arg2 harg2 arg3 harg3 arg4 harg4 arg5 harg5 hc0 hc1 x0 x1 xs0 = body1 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero (S := S128x64) hz2]
  unfold body1
  simp only [View.readAt_eq_ld, harg2.read_unread, harg3.read_unread, harg5.read_unread,
    View.ld_unit_zero (S := S128x64x32) hz3, View.ld_unit_zero (S := S64x32x128) hz3, View.ld_unit_zero (S := S128x64) hz2]

/-- … and the output block receives the same value, read back from the accumulator. -/
theorem out1_C_2_eq (c : Dev nD) (i : grid1.Coords) (arg2 : Memref sig .tc .vmem S128x64x32 .f32) (harg2 : arg2.IsWhole)
    (arg3 : Memref sig .tc .vmem S64x32x128 .f32) (harg3 : arg3.IsWhole) (arg4 : Memref sig .tc .vmem S128x64 .f32) (harg4 : arg4.IsWhole)
    (arg5 : Memref sig .tc .vmem S128x64 .f32) (harg5 : arg5.IsWhole) (hc0 : ¬cond1_0 i) (hc1 : cond1_1 i)
    (x0 : Vec F S128x64x32 .f32) (x1 : Vec F S64x32x128 .f32) (xs0 : Vec F S128x64 .f32) :
    out1_C_2 c i arg2 harg2 arg3 harg3 arg4 harg4 arg5 harg5 hc0 hc1 x0 x1 xs0 = body1 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero (S := S128x64) hz2, View.readCov_unit_zero (S := S128x64) _ hz2]
  unfold body1
  simp only [View.readAt_eq_ld, harg2.read_unread, harg3.read_unread, harg5.read_unread,
    View.ld_unit_zero (S := S128x64x32) hz3, View.ld_unit_zero (S := S64x32x128) hz3, View.ld_unit_zero (S := S128x64) hz2]

end Cert.KernelIdeal.Hand

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.KI.Pay0.lean ====
/-
  The two values the matrix-product kernel stores into its accumulator block, read at an entry over the extended
  reals. On the first step along the contraction axis it stores the zero word broadcast over the block: 0 at every
  entry. On every step it stores the accumulator plus the product of the left block with the right block: at (p, q)
  the old entry plus the sum over k of lhs(p, k) · rhs(k, q). The shape casts around them are to the same shape,
  hence the identity.
-/
import proofs.«166065_j11759620457095_2_alg».proof.Proof.Gen.KernelIdeal.Skeleton
import proofs.«166065_j11759620457095_2_alg».proof.Proof.LibPlainDot
import Idealize.ShloMosaic.Lib.ValueIdx
import Idealize.ShloMosaic.Lib.Pipeline.Value

noncomputable section

namespace Cert.KernelIdeal.Hand

open Idealize.ShloMosaic Idealize.ShloMosaic.ValueIdx Cert.KernelIdeal Cert.KernelIdeal.Gen

/-- The block the first step stores is 0 at every entry. -/
theorem zero_block_apply (p : Fin 256) (q : Fin 512) : k0_pay1 (F := Ideal) (ix2 p q) = 0 := by
  unfold k0_pay1
  rw [shapeCast_self]
  exact Ideal.ofBits_zero_f32

/-- The block every step stores: the accumulator plus the product of the two blocks, at (p, q). The recorded
    dimension numbers are the plain ones (the left operand's second axis against the right operand's first, no
    batch axis), and the product accumulates into the zero block. -/
theorem acc_step_apply (v3 v4 : Vec Ideal S256x512 .f32) (v5 : Vec Ideal S512x512 .f32) (p : Fin 256) (q : Fin 512) :
    k0_pay2 v3 v4 v5 (ix2 p q) = v3 (ix2 p q) + ∑ k : Fin 512, v4 (ix2 p k) * v5 (ix2 k q) := by
  unfold k0_pay2
  rw [shapeCast_self, shapeCast_self]
  refine congrArg (v3 (ix2 p q) + ·) ?_
  exact LibPlainDot.matmul_zero_apply (M := 256) (K := 512) (N := 512) (some .fp32) v4 v5 p q

end Cert.KernelIdeal.Hand

end
-- ==== Proof.LibBlockSum.lean ====
/- Block sums: a sum over Fin (n * b) is the sum over the n blocks of the b entries of each block,
   the entry j of block k sitting at position k * b + j. Over any commutative additive monoid. -/
import Mathlib.Algebra.BigOperators.Fin
import Mathlib.Data.Fintype.BigOperators
import Mathlib.Logic.Equiv.Fin.Basic

namespace BlockSum

variable {M : Type*} [AddCommMonoid M]

/-- Position k * b + j, with k < n and j < b, lies below n * b. -/
theorem block_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right _ k.isLt

/-- A sum over Fin (n * b) is the sum over the n blocks of the sums over the b entries of each block:
    ∑ k < n, ∑ j < b, f (k * b + j) = ∑ i < n * b, f i. -/
theorem sum_blocks (n b : ℕ) (f : Fin (n * b) → M) :
    (∑ k : Fin n, ∑ j : Fin b, f ⟨k.val * b + j.val, block_lt k j⟩) = ∑ i : Fin (n * b), f i := by
  rw [← Equiv.sum_comp finProdFinEquiv f, Fintype.sum_prod_type]
  refine Finset.sum_congr rfl fun k _ => Finset.sum_congr rfl fun j _ => ?_
  exact congrArg f (Fin.ext (by simp [finProdFinEquiv, Nat.mul_comm, Nat.add_comm]))

/-- 8 blocks of 1024 over Fin 8192. -/
theorem sum_blocks_8_1024 (f : Fin 8192 → M) :
    (∑ k : Fin 8, ∑ j : Fin 1024, f ⟨k.val * 1024 + j.val, by omega⟩) = ∑ i : Fin 8192, f i :=
  sum_blocks 8 1024 f

/-- 8 blocks of 2048 over Fin 16384. -/
theorem sum_blocks_8_2048 (f : Fin 16384 → M) :
    (∑ k : Fin 8, ∑ j : Fin 2048, f ⟨k.val * 2048 + j.val, by omega⟩) = ∑ i : Fin 16384, f i :=
  sum_blocks 8 2048 f

/-- 4 blocks of 2048 over Fin 8192. -/
theorem sum_blocks_4_2048 (f : Fin 8192 → M) :
    (∑ k : Fin 4, ∑ j : Fin 2048, f ⟨k.val * 2048 + j.val, by omega⟩) = ∑ i : Fin 8192, f i :=
  sum_blocks 4 2048 f

end BlockSum
-- ==== Proof.Sums.lean ====
/-
  The accumulations the two kernels perform, as sums over the whole range. An accumulator that starts from 0 and
  adds, block after block, the sum over one block of 512 (of 128) consecutive positions holds after 4 (after 2) blocks
  the sum over all 2048 (all 256) positions. Over any commutative additive monoid.
-/
import Mathlib.Data.EReal.Basic
import proofs.«166065_j11759620457095_2_alg».proof.Proof.LibBlockSum

namespace Cert.Sums

/-- Four blocks of 512, accumulated from 0 in order, are the sum over Fin 2048. -/
theorem fold4 {M : Type*} [AddCommMonoid M] (f : Fin 2048 → M) :
    (((0 + ∑ k : Fin 512, f ⟨0 * 512 + k.val, by omega⟩) + ∑ k : Fin 512, f ⟨1 * 512 + k.val, by omega⟩)
        + ∑ k : Fin 512, f ⟨2 * 512 + k.val, by omega⟩) + ∑ k : Fin 512, f ⟨3 * 512 + k.val, by omega⟩
      = ∑ k : Fin 2048, f k := by
  have h := BlockSum.sum_blocks 4 512 f
  rw [Fin.sum_univ_four] at h
  rw [zero_add]
  exact h

/-- Two blocks of 128, accumulated from 0 in order, are the sum over Fin 256. -/
theorem fold2 {M : Type*} [AddCommMonoid M] (f : Fin 256 → M) :
    (0 + ∑ j : Fin 128, f ⟨0 * 128 + j.val, by omega⟩) + ∑ j : Fin 128, f ⟨1 * 128 + j.val, by omega⟩
      = ∑ j : Fin 256, f j := by
  have h := BlockSum.sum_blocks 2 128 f
  rw [Fin.sum_univ_two] at h
  rw [zero_add]
  exact h

end Cert.Sums
-- ==== Proof.KI.Value0.lean ====
/-
  The first kernel's result array, over the extended reals: after the run it holds the matrix product of the two
  arrays the region finds, entry (p, n) the sum over all 2048 contraction indices of X(p, k) · Y(k, n). Each output
  block (rows 0..255, columns 512 j .. 512 j + 511) is written back once, at the last of the four contraction steps
  of its column block; what is written is the accumulator after the four steps, ((((0 + B₀) + B₁) + B₂) + B₃) with
  B_d the product of the d-th 512-wide slab of X with the matching slab of Y; and the four slabs' sums are the whole
  sum, regrouped.
-/
import proofs.«166065_j11759620457095_2_alg».proof.Proof.KI.Reg0
import proofs.«166065_j11759620457095_2_alg».proof.Proof.KI.Pieces
import proofs.«166065_j11759620457095_2_alg».proof.Proof.KI.Pay0
import proofs.«166065_j11759620457095_2_alg».proof.Proof.Sums
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the 1 × 4 × 4 grid, point t = 4 j + k: the left window's block is (0, k), the right
    window's (k, j), the output window's (0, j). -/
theorem idx0 : ∀ t : Fin cfg0.N, win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4 :=
  (by decide +kernel : ∀ t : Fin grid0.N, _)

/-- The two arrays the region reads, as extended-real functions of literal index types: the [256, 2048] left factor
    and the [2048, 2048] right factor. -/
abbrev X0 (c : Dev nD) : S256x2048.Idx → EReal := V c main_arg0
abbrev Y0 (c : Dev nD) : S2048x2048.Idx → EReal := V c main_v0

/-- The matrix product of a [256, 2048] array with a [2048, 2048] array, entry by entry. -/
def prod (X : S256x2048.Idx → EReal) (Y : S2048x2048.Idx → EReal) : S256x2048.Idx → EReal :=
  fun i => ∑ k : Fin 2048, X (ix2 ⟨(i 0).val, idx2_lt0 i⟩ k) * Y (ix2 k ⟨(i 1).val, idx2_lt1 i⟩)

/-- The left window's block at point u, entry (p, kk): the array's entry (p, 512 (u mod 4) + kk). -/
theorem blk0_0_apply (c : Dev nD) (u : Fin cfg0.N) (p : Fin 256) (kk : Fin 512) :
    (iblk0 V c 0 u : Vec Ideal S256x512 .f32) (ix2 p kk)
      = X0 V c (ix2 p ⟨512 * (u.val % 4) + kk.val, by have := Nat.mod_lt u.val (by decide : 0 < 4); omega⟩) := by
  obtain ⟨e0, e1, -⟩ := idx0 u
  unfold iblk0
  rw [View.read_apply]
  show V c main_arg0 _ = V c main_arg0 _
  refine congrArg _ (funext fun a => Fin.ext ?_)
  match a with
  | ⟨0, _⟩ => show win0_0.index u (0 : Fin 2) * 256 + 1 * p.val = p.val; omega
  | ⟨1, _⟩ => show win0_0.index u (1 : Fin 2) * 512 + 1 * kk.val = 512 * (u.val % 4) + kk.val; omega

/-- The right window's block at point u, entry (kk, q): the array's entry (512 (u mod 4) + kk, 512 (u / 4) + q). -/
theorem blk0_1_apply (c : Dev nD) (u : Fin cfg0.N) (kk : Fin 512) (q : Fin 512) :
    (iblk0 V c 1 u : Vec Ideal S512x512 .f32) (ix2 kk q)
      = Y0 V c (ix2 ⟨512 * (u.val % 4) + kk.val, by have := Nat.mod_lt u.val (by decide : 0 < 4); omega⟩
          ⟨512 * (u.val / 4) + q.val, by have h := u.isLt; have hN : cfg0.N = 16 := N_0; omega⟩) := by
  obtain ⟨-, -, e2, e3, -⟩ := idx0 u
  unfold iblk0
  rw [View.read_apply]
  show V c main_v0 _ = V c main_v0 _
  refine congrArg _ (funext fun a => Fin.ext ?_)
  match a with
  | ⟨0, _⟩ => show win0_1.index u (0 : Fin 2) * 512 + 1 * kk.val = 512 * (u.val % 4) + kk.val; omega
  | ⟨1, _⟩ => show win0_1.index u (1 : Fin 2) * 512 + 1 * q.val = 512 * (u.val / 4) + q.val; omega

/-- One accumulation step at point u, in the d-th contraction slab (u mod 4 = d) of column block j (u / 4 = j), at
    entry (p, q): the accumulator's entry plus the slab's partial sum. -/
theorem slab_step_apply (c : Dev nD) (u : Fin cfg0.N) (d j : ℕ) (hd : u.val % 4 = d) (hj : u.val / 4 = j)
    (acc : Vec Ideal S256x512 .f32) (p : Fin 256) (q : Fin 512) :
    k0_pay2 acc (iblk0 V c 0 u) (iblk0 V c 1 u) (ix2 p q)
      = acc (ix2 p q) + ∑ kk : Fin 512,
          X0 V c (ix2 p ⟨d * 512 + kk.val, by have := Nat.mod_lt u.val (by decide : 0 < 4); omega⟩)
            * Y0 V c (ix2 ⟨d * 512 + kk.val, by have := Nat.mod_lt u.val (by decide : 0 < 4); omega⟩
                ⟨j * 512 + q.val, by have h := u.isLt; have hN : cfg0.N = 16 := N_0; omega⟩) := by
  refine (acc_step_apply acc (iblk0 V c 0 u) (iblk0 V c 1 u) p q).trans ?_
  refine congrArg (acc (ix2 p q) + ·) (Finset.sum_congr rfl fun kk _ => ?_)
  rw [blk0_0_apply V c u p kk, blk0_1_apply V c u kk q]
  subst hd hj
  refine congrArg₂ (· * ·) (congrArg (X0 V c) ?_) (congrArg (Y0 V c) ?_)
  · exact congrArg (ix2 p) (Fin.ext (by show 512 * (u.val % 4) + kk.val = u.val % 4 * 512 + kk.val; omega))
  · exact congrArg₂ ix2 (Fin.ext (by show 512 * (u.val % 4) + kk.val = u.val % 4 * 512 + kk.val; omega))
      (Fin.ext (by show 512 * (u.val / 4) + q.val = u.val / 4 * 512 + q.val; omega))

/-- The accumulator after a first step: the step's value over the zero block. -/
theorem acc_A (c : Dev nD) (n : ℕ) (hn : n < cfg0.N) (h0 : n % 4 = 0) (h1 : ¬n % 4 = 3) :
    (outsAt0 V c n hn).2 = k0_pay2 (k0_pay1 (F := Ideal)) (iblk0 V c 0 ⟨n, hn⟩) (iblk0 V c 1 ⟨n, hn⟩) := by
  have e := outsAt0_A V c ⟨n, hn⟩ h0 h1
  dsimp only at e
  rw [e]; dsimp only
  rw [sout0_A_0_eq]

/-- The accumulator after a middle step: the step's value over what the step before left. -/
theorem acc_B (c : Dev nD) (n : ℕ) (hn : n < cfg0.N) (h0 : ¬n % 4 = 0) (h1 : ¬n % 4 = 3) :
    (outsAt0 V c n hn).2 = k0_pay2 (outsAt0 V c (n - 1) (Nat.lt_of_le_of_lt (Nat.sub_le _ _) hn)).2
      (iblk0 V c 0 ⟨n, hn⟩) (iblk0 V c 1 ⟨n, hn⟩) := by
  have e := outsAt0_B V c ⟨n, hn⟩ h0 h1
  dsimp only at e
  rw [e]; dsimp only
  rw [sout0_B_0_eq]

/-- The output block at a last step: the step's value over what the step before left. -/
theorem out_C (c : Dev nD) (n : ℕ) (hn : n < cfg0.N) (h0 : ¬n % 4 = 0) (h1 : n % 4 = 3) :
    (outsAt0 V c n hn).1 = k0_pay2 (outsAt0 V c (n - 1) (Nat.lt_of_le_of_lt (Nat.sub_le _ _) hn)).2
      (iblk0 V c 0 ⟨n, hn⟩) (iblk0 V c 1 ⟨n, hn⟩) := by
  have e := outsAt0_C V c ⟨n, hn⟩ h0 h1
  dsimp only at e
  rw [e]; dsimp only
  rw [out0_C_2_eq]

/-- WHAT A WRITING-BACK POINT HOLDS: at the last contraction step n of a column block, the output window's staging
    buffer is the accumulator after the block's four steps, from the zero block. -/
theorem flush_val (c : Dev nD) (n : ℕ) (hn : n < cfg0.N) (h3 : n % 4 = 3) :
    (outsAt0 V c n hn).1
      = k0_pay2 (k0_pay2 (k0_pay2 (k0_pay2 (k0_pay1 (F := Ideal))
            (iblk0 V c 0 ⟨n - 1 - 1 - 1, by omega⟩) (iblk0 V c 1 ⟨n - 1 - 1 - 1, by omega⟩))
            (iblk0 V c 0 ⟨n - 1 - 1, by omega⟩) (iblk0 V c 1 ⟨n - 1 - 1, by omega⟩))
            (iblk0 V c 0 ⟨n - 1, by omega⟩) (iblk0 V c 1 ⟨n - 1, by omega⟩))
            (iblk0 V c 0 ⟨n, hn⟩) (iblk0 V c 1 ⟨n, hn⟩) := by
  rw [out_C V c n hn (by omega) h3,
    acc_B V c (n - 1) (by omega) (by omega) (by omega),
    acc_B V c (n - 1 - 1) (by omega) (by omega) (by omega),
    acc_A V c (n - 1 - 1 - 1) (by omega) (by omega) (by omega)]

/-- The product at the array index of entry (p, q) of output block t (column block j = t / 4): row p, column
    512 j + q. -/
theorem prod_emb (c : Dev nD) (t : Fin cfg0.N) (p : Fin 256) (q : Fin 512) :
    prod (X0 V c) (Y0 V c) (((cfg0.win 2).blk t).view.emb (ix2 p q))
      = ∑ k : Fin 2048, X0 V c (ix2 p k)
          * Y0 V c (ix2 k ⟨t.val / 4 * 512 + q.val, by have h := t.isLt; have hN : cfg0.N = 16 := N_0; omega⟩) := by
  obtain ⟨-, -, -, -, e4, e5⟩ := idx0 t
  unfold prod
  refine Finset.sum_congr rfl fun k _ => ?_
  refine congrArg₂ (· * ·) (congrArg (X0 V c) ?_) (congrArg (Y0 V c) ?_)
  · exact congrArg (ix2 · k) (Fin.ext (by show win0_2.index t (0 : Fin 2) * 256 + 1 * p.val = p.val; omega))
  · exact congrArg (ix2 k) (Fin.ext (by show win0_2.index t (1 : Fin 2) * 512 + 1 * q.val = t.val / 4 * 512 + q.val; omega))

/-- WHAT POINT t WRITES BACK is block t of the matrix product of the arrays the region finds. -/
theorem flushed0_eq (c : Dev nD) (t : Fin cfg0.N) (hf : (cfg0.win 2).flush t = true) :
    (dat0 V c).flushed 2 t = ((cfg0.win 2).blk t).view.read (Elt Ideal) (prod (X0 V c) (Y0 V c)) := by
  have h3 : t.val % 4 = 3 := (flush0_2 t).mp hf
  have hlt := t.isLt
  have hN : cfg0.N = 16 := N_0
  show (cfg0.win 2).cut (grid0.coords t) ((dat0 V c).after 2 t) = _
  rw [after0_2, flush_val V c t.val t.isLt h3]
  funext y
  obtain ⟨p, q, rfl⟩ : ∃ (p : Fin 256) (q : Fin 512), y = ix2 p q := ⟨y 0, y 1, eq_ix2 y⟩
  rw [View.read_apply]
  refine Eq.trans ?_ (prod_emb V c t p q).symm
  refine (slab_step_apply V c ⟨t.val, t.isLt⟩ 3 (t.val / 4) h3 rfl _ p q).trans ?_
  rw [slab_step_apply V c ⟨t.val - 1, by omega⟩ 2 (t.val / 4) (by show (t.val - 1) % 4 = 2; omega) (by show (t.val - 1) / 4 = t.val / 4; omega) _ p q,
    slab_step_apply V c ⟨t.val - 1 - 1, by omega⟩ 1 (t.val / 4) (by show (t.val - 1 - 1) % 4 = 1; omega) (by show (t.val - 1 - 1) / 4 = t.val / 4; omega) _ p q,
    slab_step_apply V c ⟨t.val - 1 - 1 - 1, by omega⟩ 0 (t.val / 4) (by show (t.val - 1 - 1 - 1) % 4 = 0; omega) (by show (t.val - 1 - 1 - 1) / 4 = t.val / 4; omega) _ p q,
    zero_block_apply p q]
  exact Cert.Sums.fold4 (fun k : Fin 2048 => X0 V c (ix2 p k)
    * Y0 V c (ix2 k ⟨t.val / 4 * 512 + q.val, by omega⟩))

/-- An index of the result array is in point t's block iff each coordinate is in the block's range on its axis. -/
theorem mem_blk0 (t : Fin cfg0.N) (i : S256x2048.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v1).slice (win0_2.rect t)).set ↔ _
  rw [View.set_slice_whole, Rect.mem_set_unit]
  exact Iff.rfl

/-- Every entry of the result array is written back by some point: column n lies in column block n / 512, written at
    that block's last contraction step. -/
theorem cover0 (i : S256x2048.Idx) : ∃ t : Fin cfg0.N, (cfg0.win 2).flush t = true ∧ i ∈ ((cfg0.win 2).blk t).view.set := by
  have hN : cfg0.N = 16 := N_0
  have hN' : grid0.N = 16 := N_0
  have hi0 : (i 0).val < 256 := idx2_lt0 i
  have hi1 : (i 1).val < 2048 := idx2_lt1 i
  obtain ⟨-, -, -, -, e4, e5⟩ := idx0 ⟨4 * ((i 1).val / 512) + 3, by omega⟩
  have e5' : win0_2.index ⟨4 * ((i 1).val / 512) + 3, by omega⟩ (1 : Fin 2) = (i 1).val / 512 := by
    rw [e5]; show (4 * ((i 1).val / 512) + 3) / 4 = _; omega
  refine ⟨⟨4 * ((i 1).val / 512) + 3, by omega⟩, (flush0_2 _).mpr (by show (4 * ((i 1).val / 512) + 3) % 4 = 3; omega), ?_⟩
  rw [mem_blk0]
  intro a
  match a with
  | ⟨0, _⟩ => show win0_2.index _ (0 : Fin 2) * 256 ≤ (i 0).val ∧ (i 0).val < win0_2.index _ (0 : Fin 2) * 256 + 256; omega
  | ⟨1, _⟩ => show win0_2.index _ (1 : Fin 2) * 512 ≤ (i 1).val ∧ (i 1).val < win0_2.index _ (1 : Fin 2) * 512 + 512; omega

/-- THE RESULT ARRAY after the first region: the matrix product of the two arrays the region finds. -/
theorem final0 (c : Dev nD) : (dat0 V c).arrAt 2 cfg0.N = prod (X0 V c) (Y0 V c) :=
  (dat0 V c).arrAt_eq_of_cover 2 (prod (X0 V c) (Y0 V c)) (flushed0_eq V c) cover0

end Cert.KernelIdeal.Hand

end
-- ==== Proof.KI.Pay1a.lean ====
/-
  The layout operations the distance body is made of, read at coordinates. The body cuts a width-one slice out of a
  rank-3 block, drops its unit axis, puts a unit axis back and broadcasts along it; each lemma here reads one of those
  operations, at an index written by its coordinates, as the operand at the index it comes from. The elementwise
  |·| and exp over the extended reals are read at an index as well.
-/
import proofs.«166065_j11759620457095_2_alg».proof.Proof.KI.Body1
import Idealize.ShloMosaic.Lib.ValueIdx
import Idealize.ShloMosaic.Lib.ValueLayout
import Idealize.ShloMosaic.Lib.Pipeline.Value
import Idealize.ShloMosaic.PureOps.Ideal.Laws

namespace Cert.KernelIdeal.Hand

open Idealize.ShloMosaic Idealize.ShloMosaic.ValueIdx Cert.KernelIdeal Cert.KernelIdeal.Gen

section Layout
variable {α : Type}

/-- A width-one slice along the last axis starts inside that axis. -/
theorem slice_last_lt {a b n c : ℕ} (h : (⟨3, ![a, b, n]⟩ : Shape).Slices ![0, 0, c] ⟨3, ![a, b, 1]⟩) : c < n :=
  h.2 (2 : Fin 3)

/-- A width-one slice along the middle axis starts inside that axis. -/
theorem slice_mid_lt {a n e c : ℕ} (h : (⟨3, ![a, n, e]⟩ : Shape).Slices ![0, c, 0] ⟨3, ![a, 1, e]⟩) : c < n :=
  h.2 (1 : Fin 3)

/-- The width-one slice at `c` along the last axis reads, at (p, q, ·), the source at (p, q, c). -/
theorem slice_last_apply {a b n : ℕ} (c : ℕ) (x : (⟨3, ![a, b, n]⟩ : Shape).Idx → α)
    (h : (⟨3, ![a, b, n]⟩ : Shape).Slices ![0, 0, c] ⟨3, ![a, b, 1]⟩) (p : Fin a) (q : Fin b) (u : Fin 1) :
    extractStridedSlice ⟨3, ![a, b, 1]⟩ ![0, 0, c] x h (ix3 p q u) = x (ix3 p q ⟨c, slice_last_lt h⟩) :=
  extractStridedSlice_apply _ _ _ _ _ (fun ax => by
    match ax with
    | ⟨0, _⟩ => exact (Nat.zero_add _).symm
    | ⟨1, _⟩ => exact (Nat.zero_add _).symm
    | ⟨2, _⟩ => show c = c + u.val; omega)

/-- The width-one slice at `c` along the middle axis reads, at (q, ·, j), the source at (q, c, j). -/
theorem slice_mid_apply {a n e : ℕ} (c : ℕ) (y : (⟨3, ![a, n, e]⟩ : Shape).Idx → α)
    (h : (⟨3, ![a, n, e]⟩ : Shape).Slices ![0, c, 0] ⟨3, ![a, 1, e]⟩) (q : Fin a) (u : Fin 1) (j : Fin e) :
    extractStridedSlice ⟨3, ![a, 1, e]⟩ ![0, c, 0] y h (ix3 q u j) = y (ix3 q ⟨c, slice_mid_lt h⟩ j) :=
  extractStridedSlice_apply _ _ _ _ _ (fun ax => by
    match ax with
    | ⟨0, _⟩ => exact (Nat.zero_add _).symm
    | ⟨1, _⟩ => show c = c + u.val; omega
    | ⟨2, _⟩ => exact (Nat.zero_add _).symm)

/-- An [a, b, 1] array read as [a, b]: entry (p, q) is entry (p, q, 0). -/
theorem cast_ab1_ab_apply {a b : ℕ} (v : (⟨3, ![a, b, 1]⟩ : Shape).Idx → α)
    (h : (⟨3, ![a, b, 1]⟩ : Shape).ShapeCasts ⟨2, ![a, b]⟩) (p : Fin a) (q : Fin b) :
    shapeCast ⟨2, ![a, b]⟩ v h (ix2 p q) = v (ix3 p q (0 : Fin 1)) :=
  shapeCast_apply v h _ _ (by
    rw [Shape.rowMajor_val_three, Shape.rowMajor_val_two]
    show (p.val * b + q.val) * 1 + 0 = p.val * b + q.val
    omega)

/-- An [a, b] array read as [a, b, 1]: entry (p, q, ·) is entry (p, q). -/
theorem cast_ab_ab1_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) :=
  shapeCast_apply v h _ _ (by
    have hu : u.val = 0 := by omega
    rw [Shape.rowMajor_val_three, Shape.rowMajor_val_two]
    show p.val * b + q.val = (p.val * b + q.val) * 1 + u.val
    omega)

/-- An [a, 1, b] array read as [a, b]: entry (q, j) is entry (q, 0, j). -/
theorem cast_a1b_ab_apply {a b : ℕ} (v : (⟨3, ![a, 1, b]⟩ : Shape).Idx → α)
    (h : (⟨3, ![a, 1, b]⟩ : Shape).ShapeCasts ⟨2, ![a, b]⟩) (q : Fin a) (j : Fin b) :
    shapeCast ⟨2, ![a, b]⟩ v h (ix2 q j) = v (ix3 q (0 : Fin 1) j) :=
  shapeCast_apply v h _ _ (by
    rw [Shape.rowMajor_val_three, Shape.rowMajor_val_two]
    show (q.val * 1 + 0) * b + j.val = q.val * b + j.val
    rw [Nat.mul_one, Nat.add_zero])

/-- An [a, b, 1] array broadcast along its unit axis to [a, b, c]: entry (p, q, j) is entry (p, q, 0). -/
theorem bcast_ab1_abc_apply {a b c : ℕ} (v : (⟨3, ![a, b, 1]⟩ : Shape).Idx → α)
    (h : (⟨3, ![a, b, 1]⟩ : Shape).Broadcasts ⟨3, ![a, b, c]⟩) (p : Fin a) (q : Fin b) (j : Fin c) :
    broadcastTo ⟨3, ![a, b, c]⟩ v h (ix3 p q j) = v (ix3 p q (0 : Fin 1)) := by
  refine broadcastTo_apply v h (ix3 p q j) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A [1, b, e] array broadcast along its unit axis to [a, b, e]: entry (p, q, j) is entry (0, q, j). -/
theorem bcast_1be_abe_apply {a b e : ℕ} (v : (⟨3, ![1, b, e]⟩ : Shape).Idx → α)
    (h : (⟨3, ![1, b, e]⟩ : Shape).Broadcasts ⟨3, ![a, b, e]⟩) (p : Fin a) (q : Fin b) (j : Fin e) :
    broadcastTo ⟨3, ![a, b, e]⟩ v h (ix3 p q j) = v (ix3 (0 : Fin 1) q j) := by
  refine broadcastTo_apply v h (ix3 p q j) (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if e = 1 then 0 else j.val
    split
    · have := j.isLt; omega
    · rfl

end Layout

/-- The absolute value over the extended reals, at an index: the larger of the entry and its negative. -/
theorem absf_apply {s : Shape} {φ : FTy} (x : FVec Ideal s φ) (i : s.Idx) : absf x i = max (x i) (-(x i)) := rfl

/-- The exponential over the extended reals, at an index. -/
theorem exp_apply {s : Shape} {φ : FTy} (x : FVec Ideal s φ) (i : s.Idx) : exp x i = Ideal.exp (x i) := rfl

/-- One |a − b| term of the body: the slice of the first block at `c` along its last axis, broadcast along a new last
    axis, minus the slice of the second block at `c` along its middle axis, broadcast along a new first axis, in
    absolute value. At (p, q, j) it is |x(p, q, c) − y(q, c, j)|. -/
theorem step_apply (c : ℕ) (x : FVec Ideal S128x64x32 .f32) (y : FVec Ideal S64x32x128 .f32)
    (hs : S128x64x32.Slices ![0, 0, c] S128x64x1) (hs' : S64x32x128.Slices ![0, c, 0] S64x1x128)
    (p : Fin 128) (q : Fin 64) (j : Fin 128) :
    absf (subf
        (broadcastTo S128x64x128 (shapeCast S128x64x1 (shapeCast S128x64 (extractStridedSlice S128x64x1 ![0, 0, c] x hs)
          shapeCasts_S128x64x1_S128x64) shapeCasts_S128x64_S128x64x1) broadcasts_S128x64x1_S128x64x128)
        (broadcastTo S128x64x128 (shapeCast S1x64x128 (shapeCast S64x128 (extractStridedSlice S64x1x128 ![0, c, 0] y hs')
          shapeCasts_S64x1x128_S64x128) shapeCasts_S64x128_S1x64x128) broadcasts_S1x64x128_S128x64x128)) (ix3 p q j)
      = max (x (ix3 p q ⟨c, slice_last_lt hs⟩) - y (ix3 q ⟨c, slice_mid_lt hs'⟩ j))
          (-(x (ix3 p q ⟨c, slice_last_lt hs⟩) - y (ix3 q ⟨c, slice_mid_lt hs'⟩ j))) := by
  simp only [absf_apply, subf_apply, bcast_ab1_abc_apply, bcast_1be_abe_apply, cast_ab_ab1_apply, shapeCast_ab_1ab_apply,
    cast_ab1_ab_apply, cast_a1b_ab_apply, slice_last_apply, slice_mid_apply]

end Cert.KernelIdeal.Hand
-- ==== Proof.KI.Pay1b.lean ====
/-
  The body's named intermediate values read at one entry. The running value D after step c is D + |a_c − b_c| from
  D = 0, where a_c (p, q, j) is entry (p, q, c) of the first block and b_c (p, q, j) entry (q, c, j) of the second;
  the steps are cut across the intermediate values at arbitrary places, so each value is read as the running value
  it was given plus the terms it adds, and a value that only prepares a slice is read as the entry it holds.
-/
import proofs.«166065_j11759620457095_2_alg».proof.Proof.KI.Pay1a

namespace Cert.KernelIdeal.Hand

open Idealize.ShloMosaic Idealize.ShloMosaic.ValueIdx Cert.KernelIdeal Cert.KernelIdeal.Gen

/-- The word of all zero bits is the number zero. -/
theorem zero_word : (Scalar.ofBits .f32 0x00000000#32 : Ideal .f32) = 0 := Ideal.ofBits_zero_f32

/-- The term step `c` adds at (p, q, j): |x(p, q, c) − y(q, c, j)|, the absolute value as the larger of a number and its
    negative. -/
noncomputable def term (x : FVec Ideal S128x64x32 .f32) (y : FVec Ideal S64x32x128 .f32) (p : Fin 128) (q : Fin 64) (j : Fin 128)
    (c : Fin 32) : EReal :=
  max (x (ix3 p q c) - y (ix3 q c j)) (-(x (ix3 p q c) - y (ix3 q c j)))

/-- The first block as the body names it: itself. -/
theorem pay3_eq (v3 : Vec Ideal S128x64x32 .f32) : k1_pay3 v3 = v3 := shapeCast_self _ _

/-- The second block as the body names it: itself. -/
theorem pay4_eq (v5 : Vec Ideal S64x32x128 .f32) : k1_pay4 v5 = v5 := shapeCast_self _ _

/-- Steps 0, 1, 2 from zero. -/
theorem pay5_apply (v3 : Vec Ideal S128x64x32 .f32) (v5 : Vec Ideal S64x32x128 .f32) (p : Fin 128) (q : Fin 64) (j : Fin 128) :
    k1_pay5 v3 v5 (ix3 p q j) = 0 + term v3 v5 p q j ⟨0, by omega⟩ + term v3 v5 p q j ⟨1, by omega⟩ + term v3 v5 p q j ⟨2, by omega⟩ := by
  simp only [k1_pay5, pay3_eq, pay4_eq, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 3's second operand before its broadcast: entry (q, 3, j) of the second block. -/
theorem pay6_apply (v5 : Vec Ideal S64x32x128 .f32) (u : Fin 1) (q : Fin 64) (j : Fin 128) :
    k1_pay6 v5 (ix3 u q j) = v5 (ix3 q ⟨3, by omega⟩ j) := by
  simp only [k1_pay6, pay4_eq, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 3's first operand: entry (p, q, 3) of the first block. -/
theorem pay7_apply (v3 : Vec Ideal S128x64x32 .f32) (p : Fin 128) (q : Fin 64) (j : Fin 128) :
    k1_pay7 v3 (ix3 p q j) = v3 (ix3 p q ⟨3, by omega⟩) := by
  simp only [k1_pay7, pay3_eq, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 3 finished from its two prepared operands, then steps 4 to 8. -/
theorem pay8_apply (v4 : FVec Ideal S128x64x32 .f32) (v6 : FVec Ideal S64x32x128 .f32) (v40 : FVec Ideal S128x64x128 .f32) (v46 : FVec Ideal S1x64x128 .f32) (v47 : FVec Ideal S128x64x128 .f32) (p : Fin 128) (q : Fin 64) (j : Fin 128) :
    k1_pay8 v4 v6 v40 v46 v47 (ix3 p q j)
      = v40 (ix3 p q j) + max (v47 (ix3 p q j) - v46 (ix3 (0 : Fin 1) q j)) (-(v47 (ix3 p q j) - v46 (ix3 (0 : Fin 1) q j))) + term v4 v6 p q j ⟨4, by omega⟩ + term v4 v6 p q j ⟨5, by omega⟩ + term v4 v6 p q j ⟨6, by omega⟩ + term v4 v6 p q j ⟨7, by omega⟩ + term v4 v6 p q j ⟨8, by omega⟩ := by
  simp only [k1_pay8, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 9's slice of the first block: entry (p, q, 9). -/
theorem pay9_apply (v4 : FVec Ideal S128x64x32 .f32) (p : Fin 128) (q : Fin 64) (u : Fin 1) :
    k1_pay9 v4 (ix3 p q u) = v4 (ix3 p q ⟨9, by omega⟩) := by
  simp only [k1_pay9, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 9 finished from the prepared slice, then steps 10 to 13. -/
theorem pay10_apply (v4 : FVec Ideal S128x64x32 .f32) (v6 : FVec Ideal S64x32x128 .f32) (v106 : FVec Ideal S128x64x128 .f32) (v107 : FVec Ideal S128x64x1 .f32) (p : Fin 128) (q : Fin 64) (j : Fin 128) :
    k1_pay10 v4 v6 v106 v107 (ix3 p q j)
      = v106 (ix3 p q j) + max (v107 (ix3 p q (0 : Fin 1)) - v6 (ix3 q ⟨9, by omega⟩ j)) (-(v107 (ix3 p q (0 : Fin 1)) - v6 (ix3 q ⟨9, by omega⟩ j))) + term v4 v6 p q j ⟨10, by omega⟩ + term v4 v6 p q j ⟨11, by omega⟩ + term v4 v6 p q j ⟨12, by omega⟩ + term v4 v6 p q j ⟨13, by omega⟩ := by
  simp only [k1_pay10, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 14's first operand before its broadcast: entry (p, q, 14) of the first block. -/
theorem pay11_apply (v4 : FVec Ideal S128x64x32 .f32) (p : Fin 128) (q : Fin 64) (u : Fin 1) :
    k1_pay11 v4 (ix3 p q u) = v4 (ix3 p q ⟨14, by omega⟩) := by
  simp only [k1_pay11, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 14's second operand before its broadcast: entry (q, 14, j) of the second block. -/
theorem pay12_apply (v6 : FVec Ideal S64x32x128 .f32) (u : Fin 1) (q : Fin 64) (j : Fin 128) :
    k1_pay12 v6 (ix3 u q j) = v6 (ix3 q ⟨14, by omega⟩ j) := by
  simp only [k1_pay12, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 14 finished from its two prepared operands, then steps 15 to 19. -/
theorem pay13_apply (v4 : FVec Ideal S128x64x32 .f32) (v6 : FVec Ideal S64x32x128 .f32) (v161 : FVec Ideal S128x64x128 .f32) (v166 : FVec Ideal S128x64x1 .f32) (v167 : FVec Ideal S1x64x128 .f32) (p : Fin 128) (q : Fin 64) (j : Fin 128) :
    k1_pay13 v4 v6 v161 v166 v167 (ix3 p q j)
      = v161 (ix3 p q j) + max (v166 (ix3 p q (0 : Fin 1)) - v167 (ix3 (0 : Fin 1) q j)) (-(v166 (ix3 p q (0 : Fin 1)) - v167 (ix3 (0 : Fin 1) q j))) + term v4 v6 p q j ⟨15, by omega⟩ + term v4 v6 p q j ⟨16, by omega⟩ + term v4 v6 p q j ⟨17, by omega⟩ + term v4 v6 p q j ⟨18, by omega⟩ + term v4 v6 p q j ⟨19, by omega⟩ := by
  simp only [k1_pay13, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Steps 20 to 24. -/
theorem pay14_apply (v4 : FVec Ideal S128x64x32 .f32) (v6 : FVec Ideal S64x32x128 .f32) (v227 : FVec Ideal S128x64x128 .f32) (p : Fin 128) (q : Fin 64) (j : Fin 128) :
    k1_pay14 v4 v6 v227 (ix3 p q j) = v227 (ix3 p q j) + term v4 v6 p q j ⟨20, by omega⟩ + term v4 v6 p q j ⟨21, by omega⟩ + term v4 v6 p q j ⟨22, by omega⟩ + term v4 v6 p q j ⟨23, by omega⟩ + term v4 v6 p q j ⟨24, by omega⟩ := by
  simp only [k1_pay14, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 25's slice of the second block with its unit axis dropped: entry (q, 25, j). -/
theorem pay15_apply (v6 : FVec Ideal S64x32x128 .f32) (q : Fin 64) (j : Fin 128) :
    k1_pay15 v6 (ix2 q j) = v6 (ix3 q ⟨25, by omega⟩ j) := by
  simp only [k1_pay15, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 25's first operand before its broadcast: entry (p, q, 25) of the first block. -/
theorem pay16_apply (v4 : FVec Ideal S128x64x32 .f32) (p : Fin 128) (q : Fin 64) (u : Fin 1) :
    k1_pay16 v4 (ix3 p q u) = v4 (ix3 p q ⟨25, by omega⟩) := by
  simp only [k1_pay16, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 25 finished from its two prepared operands, then steps 26 to 29. -/
theorem pay17_apply (v4 : FVec Ideal S128x64x32 .f32) (v6 : FVec Ideal S64x32x128 .f32) (v282 : FVec Ideal S128x64x128 .f32) (v286 : FVec Ideal S64x128 .f32) (v287 : FVec Ideal S128x64x1 .f32) (p : Fin 128) (q : Fin 64) (j : Fin 128) :
    k1_pay17 v4 v6 v282 v286 v287 (ix3 p q j)
      = v282 (ix3 p q j) + max (v287 (ix3 p q (0 : Fin 1)) - v286 (ix2 q j)) (-(v287 (ix3 p q (0 : Fin 1)) - v286 (ix2 q j))) + term v4 v6 p q j ⟨26, by omega⟩ + term v4 v6 p q j ⟨27, by omega⟩ + term v4 v6 p q j ⟨28, by omega⟩ + term v4 v6 p q j ⟨29, by omega⟩ := by
  simp only [k1_pay17, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

/-- Step 30's term alone. -/
theorem pay18_apply (v4 : FVec Ideal S128x64x32 .f32) (v6 : FVec Ideal S64x32x128 .f32) (p : Fin 128) (q : Fin 64) (j : Fin 128) :
    k1_pay18 v4 v6 (ix3 p q j) = term v4 v6 p q j ⟨30, by omega⟩ := by
  simp only [k1_pay18, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

end Cert.KernelIdeal.Hand
-- ==== Proof.KI.Pay1c.lean ====
/-
  The body's last value read at one entry: step 30's term added, step 31, then exp (0 − D) summed over the 128 lanes and
  added to the accumulator. The sum over the lanes is the library's sum over the reduced axis with its index, the
  reduced index with the lane's coordinate put back, written by coordinates.
-/
import proofs.«166065_j11759620457095_2_alg».proof.Proof.KI.Pay1b

namespace Cert.KernelIdeal.Hand

open Idealize.ShloMosaic Idealize.ShloMosaic.ValueIdx Cert.KernelIdeal Cert.KernelIdeal.Gen

/-- Over the last axis of a [128, 64, 128] array, the index above (p, q) with coordinate k on that axis is (p, q, k). -/
theorem lift_ix2 (h : S128x64x128.Reduces [2] S128x64) (p : Fin 128) (q : Fin 64) (k : Fin 128) :
    h.lift (ix2 p q) k = ix3 p q k := by
  funext c
  apply Fin.ext
  match c with
  | ⟨0, _⟩ => rfl
  | ⟨1, _⟩ => rfl
  | ⟨2, _⟩ => rfl

/-- The sum along the last axis of a [128, 64, 128] array, at (p, q): the sum over j of the entries (p, q, j). -/
theorem lane_sum (x : FVec Ideal S128x64x128 .f32) (h : S128x64x128.Reduces [2] S128x64)
    (hφ : FTy.f32 = FTy.f32 ∨ FTy.f32 = FTy.bf16) (hacc : (0x00000000#32 : BitVec 32) = 0x00000000#32)
    (p : Fin 128) (q : Fin 64) :
    multiReduction .add [2] S128x64 x 0x00000000#32 h hφ hacc (ix2 p q) = ∑ j : Fin 128, x (ix3 p q j) :=
  (Ideal.multiReduction_add_single x 0x00000000#32 h hφ hacc (ix2 p q)).trans
    (Finset.sum_congr rfl fun k _ => congrArg x (lift_ix2 h p q k))

/-- The last value: the accumulator plus, summed over the lanes j, exp (0 − (D + step 30's term + step 31's term)). -/
theorem pay1_apply (v4 : FVec Ideal S128x64x32 .f32) (v6 : FVec Ideal S64x32x128 .f32) (v337 : FVec Ideal S128x64x128 .f32) (v347 : FVec Ideal S128x64x128 .f32) (v363 : Vec Ideal S128x64 .f32) (p : Fin 128) (q : Fin 64) :
    k1_pay1 v4 v6 v337 v347 v363 (ix2 p q)
      = v363 (ix2 p q) + ∑ j : Fin 128, Ideal.exp (0 - (v337 (ix3 p q j) + v347 (ix3 p q j) + term v4 v6 p q j ⟨31, by omega⟩)) := by
  simp only [k1_pay1, shapeCast_self, addf_apply]
  rw [lane_sum]
  simp only [exp_apply, addf_apply, subf_apply, absf_apply, bcast_ab1_abc_apply, bcast_1be_abe_apply, cast_ab_ab1_apply,
    shapeCast_ab_1ab_apply, cast_ab1_ab_apply, cast_a1b_ab_apply, slice_last_apply, slice_mid_apply, broadcast_apply, zero_word, term]

end Cert.KernelIdeal.Hand
-- ==== Proof.KI.Pay1.lean ====
/-
  The value the second kernel's body stores at one entry (p, q): its accumulator's entry plus, summed over the 128 lanes
  j, the exponential of minus the sum over c of |x(p, q, c) − y(q, c, j)|. The body adds the 32 terms one at a time from
  zero, so its running value is the sum over c written out from the left; and the zero block the first grid step stores.
-/
import proofs.«166065_j11759620457095_2_alg».proof.Proof.KI.Pay1c

namespace Cert.KernelIdeal.Hand

open Idealize.ShloMosaic Idealize.ShloMosaic.ValueIdx Cert.KernelIdeal Cert.KernelIdeal.Gen

/-- A sum of 32 extended reals, added one at a time from zero in the order of the index. -/
theorem sum32 (f : Fin 32 → EReal) :
    ∑ c : Fin 32, f c = 0 + f ⟨0, by omega⟩ + f ⟨1, by omega⟩ + f ⟨2, by omega⟩ + f ⟨3, by omega⟩ + f ⟨4, by omega⟩ + f ⟨5, by omega⟩ + f ⟨6, by omega⟩ + f ⟨7, by omega⟩ + f ⟨8, by omega⟩ + f ⟨9, by omega⟩ + f ⟨10, by omega⟩ + f ⟨11, by omega⟩ + f ⟨12, by omega⟩ + f ⟨13, by omega⟩ + f ⟨14, by omega⟩ + f ⟨15, by omega⟩ + f ⟨16, by omega⟩ + f ⟨17, by omega⟩ + f ⟨18, by omega⟩ + f ⟨19, by omega⟩ + f ⟨20, by omega⟩ + f ⟨21, by omega⟩ + f ⟨22, by omega⟩ + f ⟨23, by omega⟩ + f ⟨24, by omega⟩ + f ⟨25, by omega⟩ + f ⟨26, by omega⟩ + f ⟨27, by omega⟩ + f ⟨28, by omega⟩ + f ⟨29, by omega⟩ + f ⟨30, by omega⟩ + f ⟨31, by omega⟩ := by
  simp only [Fin.sum_univ_castSucc, Fin.sum_univ_zero]
  rfl

/-- The block the first grid step along the reduction stores is zero everywhere. -/
theorem pay2_zero (p : Fin 128) (q : Fin 64) : k1_pay2 (F := Ideal) (ix2 p q) = 0 := by
  simp only [k1_pay2, shapeCast_self, broadcast_apply, zero_word]

/-- The body's stored value at (p, q), from its two blocks and its accumulator. -/
theorem body1_apply (v3 : Vec Ideal S128x64x32 .f32) (v5 : Vec Ideal S64x32x128 .f32) (v363 : Vec Ideal S128x64 .f32)
    (p : Fin 128) (q : Fin 64) :
    body1 v3 v5 v363 (ix2 p q)
      = v363 (ix2 p q) + ∑ j : Fin 128, Ideal.exp (-(∑ c : Fin 32,
          max (v3 (ix3 p q c) - v5 (ix3 q c j)) (-(v3 (ix3 p q c) - v5 (ix3 q c j))))) := by
  unfold body1
  simp only [pay1_apply, pay17_apply, pay16_apply, pay15_apply, pay14_apply, pay13_apply, pay12_apply, pay11_apply,
    pay10_apply, pay9_apply, pay8_apply, pay7_apply, pay6_apply, pay5_apply, pay18_apply, pay3_eq, pay4_eq, term]
  congr 1
  refine Finset.sum_congr rfl fun j _ => ?_
  rw [zero_sub, sum32]

end Cert.KernelIdeal.Hand
-- ==== Proof.Spec.lean ====
/-
  The function both programs compute from the table Ms = x · T (T read as a [2048, 2048] matrix, the product read
  as a [256, 64, 32] table): for a row p and a column q,
      pair Ms p q = ∑ j : Fin 256, exp (−(∑ c : Fin 32, |Ms(p,q,c) − Ms(j,q,c)|)),
  the sum over all rows j of the exponential of minus the L1 distance, along the last axis, between rows p and j in
  column q. Stated over the extended reals, where |d| is max d (−d).
-/
import Idealize.ShloMosaic.PureOps.Ideal
import Idealize.ShloMosaic.Lib.ValueIdx

noncomputable section

namespace Cert.Spec

open Idealize.ShloMosaic Idealize.ShloMosaic.ValueIdx

/-- The L1 distance along the last axis between the entries (p, q, ·) of a [256, 64, 32] table and the entries
    (q, ·, j) of a [64, 32, R] table. -/
def dist {R : Nat} (u : (⟨3, ![256, 64, 32]⟩ : Shape).Idx → EReal) (w : (⟨3, ![64, 32, R]⟩ : Shape).Idx → EReal)
    (p : Fin 256) (q : Fin 64) (j : Fin R) : EReal :=
  ∑ c : Fin 32, max (u (ix3 p q c) - w (ix3 q c j)) (-(u (ix3 p q c) - w (ix3 q c j)))

/-- The table's rows laid along the last axis: entry (q, c, j) is entry (j, q, c). -/
def rowsLast (u : (⟨3, ![256, 64, 32]⟩ : Shape).Idx → EReal) : (⟨3, ![64, 32, 256]⟩ : Shape).Idx → EReal :=
  fun i => u (ix3 ⟨(i 2).val, (i 2).isLt⟩ ⟨(i 0).val, (i 0).isLt⟩ ⟨(i 1).val, (i 1).isLt⟩)

/-- The sum over all rows j of exp (−(L1 distance between rows p and j in column q)). -/
def pair (u : (⟨3, ![256, 64, 32]⟩ : Shape).Idx → EReal) (p : Fin 256) (q : Fin 64) : EReal :=
  ∑ j : Fin 256, Ideal.exp (-(dist u (rowsLast u) p q j))

end Cert.Spec

end
-- ==== Proof.KI.Value1.lean ====
/-
  The second kernel's result array, over the extended reals: after the run its entry (r, q) is the sum over all 256
  lanes j of exp (−(the L1 distance, along the last axis, between row r of the [256, 64, 32] table the region finds and
  lane j of the [64, 32, 256] table it finds, in column q)). Each output block (rows 128 i .. 128 i + 127) is written
  back once, at the second of its two lane tiles; what is written is the accumulator after the two tiles,
  (0 + S₀) + S₁ with S_d the sum over the d-th tile's 128 lanes; and the two tiles' sums are the whole sum.
-/
import proofs.«166065_j11759620457095_2_alg».proof.Proof.KI.Reg1
import proofs.«166065_j11759620457095_2_alg».proof.Proof.KI.Pieces
import proofs.«166065_j11759620457095_2_alg».proof.Proof.KI.Pay1
import proofs.«166065_j11759620457095_2_alg».proof.Proof.Spec
import proofs.«166065_j11759620457095_2_alg».proof.Proof.Sums
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the 2 × 2 grid, point t = 2 i + j: the row window's block is (i, 0, 0), the lane
    window's (0, 0, j), the output window's (i, 0). -/
theorem idx1 : ∀ t : Fin cfg1.N, win1_0.index t (0 : Fin 3) = t.val / 2 ∧ win1_0.index t (1 : Fin 3) = 0 ∧ win1_0.index t (2 : Fin 3) = 0
    ∧ win1_1.index t (0 : Fin 3) = 0 ∧ win1_1.index t (1 : Fin 3) = 0 ∧ win1_1.index t (2 : Fin 3) = t.val % 2
    ∧ win1_2.index t (0 : Fin 2) = t.val / 2 ∧ win1_2.index t (1 : Fin 2) = 0 :=
  (by decide +kernel : ∀ t : Fin grid1.N, _)

/-- The two tables the region reads, as extended-real functions of literal index types. -/
abbrev X1 (c : Dev nD) : S256x64x32.Idx → EReal := V c main_v2
abbrev Y1 (c : Dev nD) : S64x32x256.Idx → EReal := V c main_v3

/-- The pairwise sum of a [256, 64, 32] table against a [64, 32, 256] table, entry by entry. -/
def pairs (X : S256x64x32.Idx → EReal) (Y : S64x32x256.Idx → EReal) : S256x64.Idx → EReal :=
  fun i => ∑ j : Fin 256, Ideal.exp (-(Cert.Spec.dist X Y ⟨(i 0).val, idx2_lt0 i⟩ ⟨(i 1).val, idx2_lt1 i⟩ j))

/-- The row window's block at point t, entry (p, q, cc): the table's entry (128 (t / 2) + p, q, cc). -/
theorem blk1_0_apply (c : Dev nD) (t : Fin cfg1.N) (p : Fin 128) (q : Fin 64) (cc : Fin 32) :
    (iblk1 V c 0 t : Vec Ideal S128x64x32 .f32) (ix3 p q cc)
      = X1 V c (ix3 ⟨128 * (t.val / 2) + p.val, by have h := t.isLt; have hN : cfg1.N = 4 := N_1; omega⟩ q cc) := by
  obtain ⟨e0, e1, e2, -⟩ := idx1 t
  unfold iblk1
  rw [View.read_apply]
  show V c main_v2 _ = V c main_v2 _
  refine congrArg _ (funext fun a => Fin.ext ?_)
  match a with
  | ⟨0, _⟩ => show win1_0.index t (0 : Fin 3) * 128 + 1 * p.val = 128 * (t.val / 2) + p.val; omega
  | ⟨1, _⟩ => show win1_0.index t (1 : Fin 3) * 64 + 1 * q.val = q.val; omega
  | ⟨2, _⟩ => show win1_0.index t (2 : Fin 3) * 32 + 1 * cc.val = cc.val; omega

/-- The lane window's block at point t, entry (q, cc, l): the table's entry (q, cc, 128 (t mod 2) + l). -/
theorem blk1_1_apply (c : Dev nD) (t : Fin cfg1.N) (q : Fin 64) (cc : Fin 32) (l : Fin 128) :
    (iblk1 V c 1 t : Vec Ideal S64x32x128 .f32) (ix3 q cc l)
      = Y1 V c (ix3 q cc ⟨128 * (t.val % 2) + l.val, by have := Nat.mod_lt t.val (by decide : 0 < 2); omega⟩) := by
  obtain ⟨-, -, -, e3, e4, e5, -⟩ := idx1 t
  unfold iblk1
  rw [View.read_apply]
  show V c main_v3 _ = V c main_v3 _
  refine congrArg _ (funext fun a => Fin.ext ?_)
  match a with
  | ⟨0, _⟩ => show win1_1.index t (0 : Fin 3) * 64 + 1 * q.val = q.val; omega
  | ⟨1, _⟩ => show win1_1.index t (1 : Fin 3) * 32 + 1 * cc.val = cc.val; omega
  | ⟨2, _⟩ => show win1_1.index t (2 : Fin 3) * 128 + 1 * l.val = 128 * (t.val % 2) + l.val; omega

/-- One accumulation step at point u, in the d-th lane tile (u mod 2 = d) of row block i (u / 2 = i), at entry
    (p, q): the accumulator's entry plus the tile's 128 lanes' terms. -/
theorem step1_apply (c : Dev nD) (u : Fin cfg1.N) (d i : ℕ) (hd : u.val % 2 = d) (hi : u.val / 2 = i)
    (acc : Vec Ideal S128x64 .f32) (p : Fin 128) (q : Fin 64) :
    body1 (iblk1 V c 0 u) (iblk1 V c 1 u) acc (ix2 p q)
      = acc (ix2 p q) + ∑ l : Fin 128, Ideal.exp (-(Cert.Spec.dist (X1 V c) (Y1 V c)
          ⟨i * 128 + p.val, by have h := u.isLt; have hN : cfg1.N = 4 := N_1; omega⟩ q
          ⟨d * 128 + l.val, by have := Nat.mod_lt u.val (by decide : 0 < 2); omega⟩)) := by
  refine (body1_apply (iblk1 V c 0 u) (iblk1 V c 1 u) acc p q).trans ?_
  refine congrArg (acc (ix2 p q) + ·) (Finset.sum_congr rfl fun l _ => ?_)
  unfold Cert.Spec.dist
  refine congrArg Ideal.exp (congrArg Neg.neg (Finset.sum_congr rfl fun cc _ => ?_))
  rw [blk1_0_apply V c u p q cc, blk1_1_apply V c u q cc l]
  subst hd hi
  have ea : (ix3 (⟨128 * (u.val / 2) + p.val, by have h := u.isLt; have hN : cfg1.N = 4 := N_1; omega⟩ : Fin 256) q cc)
      = ix3 (⟨u.val / 2 * 128 + p.val, by have h := u.isLt; have hN : cfg1.N = 4 := N_1; omega⟩ : Fin 256) q cc :=
    congrArg (ix3 · q cc) (Fin.ext (by show 128 * (u.val / 2) + p.val = u.val / 2 * 128 + p.val; omega))
  have eb : (ix3 q cc (⟨128 * (u.val % 2) + l.val, by have := Nat.mod_lt u.val (by decide : 0 < 2); omega⟩ : Fin 256))
      = ix3 q cc (⟨u.val % 2 * 128 + l.val, by have := Nat.mod_lt u.val (by decide : 0 < 2); omega⟩ : Fin 256) :=
    congrArg (ix3 q cc) (Fin.ext (by show 128 * (u.val % 2) + l.val = u.val % 2 * 128 + l.val; omega))
  rw [ea, eb]

/-- The accumulator after a first tile: the tile's value over the zero block. -/
theorem acc1_A (c : Dev nD) (n : ℕ) (hn : n < cfg1.N) (h0 : n % 2 = 0) (h1 : ¬n % 2 = 1) :
    (outsAt1 V c n hn).2 = body1 (iblk1 V c 0 ⟨n, hn⟩) (iblk1 V c 1 ⟨n, hn⟩) (k1_pay2 (F := Ideal)) := by
  have e := outsAt1_A V c ⟨n, hn⟩ h0 h1
  dsimp only at e
  rw [e]; dsimp only
  rw [sout1_A_0_eq]

/-- The output block at a second tile: the tile's value over what the first tile left. -/
theorem out1_C (c : Dev nD) (n : ℕ) (hn : n < cfg1.N) (h0 : ¬n % 2 = 0) (h1 : n % 2 = 1) :
    (outsAt1 V c n hn).1 = body1 (iblk1 V c 0 ⟨n, hn⟩) (iblk1 V c 1 ⟨n, hn⟩)
      (outsAt1 V c (n - 1) (Nat.lt_of_le_of_lt (Nat.sub_le _ _) hn)).2 := by
  have e := outsAt1_C V c ⟨n, hn⟩ h0 h1
  dsimp only at e
  rw [e]; dsimp only
  rw [out1_C_2_eq]

/-- WHAT A WRITING-BACK POINT HOLDS: at the second lane tile n of a row block, the output window's staging buffer is
    the accumulator after the block's two tiles, from the zero block. -/
theorem flush_val1 (c : Dev nD) (n : ℕ) (hn : n < cfg1.N) (h1 : n % 2 = 1) :
    (outsAt1 V c n hn).1
      = body1 (iblk1 V c 0 ⟨n, hn⟩) (iblk1 V c 1 ⟨n, hn⟩)
          (body1 (iblk1 V c 0 ⟨n - 1, by omega⟩) (iblk1 V c 1 ⟨n - 1, by omega⟩) (k1_pay2 (F := Ideal))) := by
  rw [out1_C V c n hn (by omega) h1, acc1_A V c (n - 1) (by omega) (by omega) (by omega)]

/-- The pairwise sum at the array index of entry (p, q) of output block t (row block i = t / 2): row 128 i + p. -/
theorem pairs_emb (c : Dev nD) (t : Fin cfg1.N) (p : Fin 128) (q : Fin 64) :
    pairs (X1 V c) (Y1 V c) (((cfg1.win 2).blk t).view.emb (ix2 p q))
      = ∑ j : Fin 256, Ideal.exp (-(Cert.Spec.dist (X1 V c) (Y1 V c)
          ⟨t.val / 2 * 128 + p.val, by have h := t.isLt; have hN : cfg1.N = 4 := N_1; omega⟩ q j)) := by
  obtain ⟨-, -, -, -, -, -, e6, e7⟩ := idx1 t
  unfold pairs
  refine Finset.sum_congr rfl fun j _ => ?_
  refine congrArg Ideal.exp (congrArg Neg.neg ?_)
  refine congrArg₂ (fun a b => Cert.Spec.dist (X1 V c) (Y1 V c) a b j) (Fin.ext ?_) (Fin.ext ?_)
  · show win1_2.index t (0 : Fin 2) * 128 + 1 * p.val = t.val / 2 * 128 + p.val; omega
  · show win1_2.index t (1 : Fin 2) * 64 + 1 * q.val = q.val; omega

/-- WHAT POINT t WRITES BACK is block t of the pairwise sum of the tables the region finds. -/
theorem flushed1_eq (c : Dev nD) (t : Fin cfg1.N) (hf : (cfg1.win 2).flush t = true) :
    (dat1 V c).flushed 2 t = ((cfg1.win 2).blk t).view.read (Elt Ideal) (pairs (X1 V c) (Y1 V c)) := by
  have h1 : t.val % 2 = 1 := (flush1_2 t).mp hf
  have hlt := t.isLt
  have hN : cfg1.N = 4 := N_1
  show (cfg1.win 2).cut (grid1.coords t) ((dat1 V c).after 2 t) = _
  rw [after1_2, flush_val1 V c t.val t.isLt h1]
  funext y
  obtain ⟨p, q, rfl⟩ : ∃ (p : Fin 128) (q : Fin 64), y = ix2 p q := ⟨y 0, y 1, eq_ix2 y⟩
  rw [View.read_apply]
  refine Eq.trans ?_ (pairs_emb V c t p q).symm
  refine (step1_apply V c ⟨t.val, t.isLt⟩ 1 (t.val / 2) h1 rfl _ p q).trans ?_
  rw [step1_apply V c ⟨t.val - 1, by omega⟩ 0 (t.val / 2) (by show (t.val - 1) % 2 = 0; omega) (by show (t.val - 1) / 2 = t.val / 2; omega) _ p q,
    pay2_zero p q]
  exact Cert.Sums.fold2 (fun j : Fin 256 => Ideal.exp (-(Cert.Spec.dist (X1 V c) (Y1 V c)
    ⟨t.val / 2 * 128 + p.val, by omega⟩ q j)))

theorem mem_blk1 (t : Fin cfg1.N) (i : S256x64.Idx) :
    i ∈ ((cfg1.win 2).blk t).view.set ↔ ∀ a : Fin 2, win1_2.index t a * S128x64.size a ≤ (i a).val ∧ (i a).val < win1_2.index t a * S128x64.size a + S128x64.size a := by
  show i ∈ ((View.whole main_v4).slice (win1_2.rect t)).set ↔ _
  rw [View.set_slice_whole, Rect.mem_set_unit]
  exact Iff.rfl

/-- Every entry of the result array is written back by some point: row r lies in row block r / 128, written at that
    block's second lane tile. -/
theorem cover1 (i : S256x64.Idx) : ∃ t : Fin cfg1.N, (cfg1.win 2).flush t = true ∧ i ∈ ((cfg1.win 2).blk t).view.set := by
  have hN : cfg1.N = 4 := N_1
  have hN' : grid1.N = 4 := N_1
  have hi0 : (i 0).val < 256 := idx2_lt0 i
  have hi1 : (i 1).val < 64 := idx2_lt1 i
  obtain ⟨-, -, -, -, -, -, e6, e7⟩ := idx1 ⟨2 * ((i 0).val / 128) + 1, by omega⟩
  have e6' : win1_2.index ⟨2 * ((i 0).val / 128) + 1, by omega⟩ (0 : Fin 2) = (i 0).val / 128 := by
    rw [e6]; show (2 * ((i 0).val / 128) + 1) / 2 = _; omega
  refine ⟨⟨2 * ((i 0).val / 128) + 1, by omega⟩, (flush1_2 _).mpr (by show (2 * ((i 0).val / 128) + 1) % 2 = 1; omega), ?_⟩
  rw [mem_blk1]
  intro a
  match a with
  | ⟨0, _⟩ => show win1_2.index _ (0 : Fin 2) * 128 ≤ (i 0).val ∧ (i 0).val < win1_2.index _ (0 : Fin 2) * 128 + 128; omega
  | ⟨1, _⟩ => show win1_2.index _ (1 : Fin 2) * 64 ≤ (i 1).val ∧ (i 1).val < win1_2.index _ (1 : Fin 2) * 64 + 64; omega

/-- THE RESULT ARRAY after the second region: the pairwise sum of the two tables the region finds. -/
theorem final1 (c : Dev nD) : (dat1 V c).arrAt 2 cfg1.N = pairs (X1 V c) (Y1 V c) :=
  (dat1 V c).arrAt_eq_of_cover 2 (pairs (X1 V c) (Y1 V c)) (flushed1_eq V c) cover1

end Cert.KernelIdeal.Hand

end
-- ==== Proof.KI.HostOps.lean ====
/-
  The transpose the host performs between the two kernels, read at an index: the [256, 64, 32] table with its axes
  permuted to [64, 32, 256] is the table's rows laid along the last axis — entry (q, c, j) of the result is entry
  (j, q, c) of the table.
-/
import proofs.«166065_j11759620457095_2_alg».proof.Proof.Gen.KernelIdeal.Launch
import proofs.«166065_j11759620457095_2_alg».proof.Proof.Spec
import Idealize.ShloMosaic.Lib.ValueIdx
import Idealize.ShloMosaic.Lib.Pipeline.Value

noncomputable section

namespace Cert.KernelIdeal.Hand

open Idealize.ShloMosaic Idealize.ShloMosaic.ValueIdx Cert.KernelIdeal Cert.KernelIdeal.Gen

/-- Result axis 0 is source axis 1, result axis 1 is source axis 2, result axis 2 is source axis 0: the result at
    (q, c, j) reads the table at (j, q, c). -/
theorem transpose_rowsLast (u : FVec Ideal S256x64x32 .f32) :
    transpose S64x32x256 [1, 2, 0] u transposes_S256x64x32_S64x32x256_1_2_0 = Cert.Spec.rowsLast u := by
  funext i
  unfold Cert.Spec.rowsLast
  exact transpose_apply [1, 2, 0] u transposes_S256x64x32_S64x32x256_1_2_0 i _ (fun b => by
    match b with
    | ⟨0, _⟩ => rfl
    | ⟨1, _⟩ => rfl
    | ⟨2, _⟩ => rfl)

end Cert.KernelIdeal.Hand

end
-- ==== Proof.RefIsSpec.lean ====
/-
  The reference program read at an element. Its result at (p, q) is the function `Cert.Spec.pair` of the table it
  computes in its third operation (the matrix product x · T read as a [256, 64, 32] table); and that product, before
  the reshape, is at (p, n) the sum over k of x(p, k) · T'(k, n), T' being T read as a [2048, 2048] matrix.
-/
import proofs.«166065_j11759620457095_2_alg».proof.Proof.Gen.ReferenceIdeal.Read
import proofs.«166065_j11759620457095_2_alg».proof.Proof.Spec

noncomputable section

namespace Cert.RefSide

open Cert.ReferenceIdeal Cert.ReferenceIdeal.Read Idealize.ShloMosaic Idealize.ShloMosaic.ValueIdx

/-- The zero word both reductions start from is the extended real 0. -/
private theorem zero_word : (FloatOps.ofBits (F := Ideal) .f32 0x00000000#32) = (0 : EReal) := Ideal.ofBits_zero_f32

/-- The reference's result at (p, q): the sum over all rows j of exp (−(L1 distance, along the last axis, between
    rows p and j in column q of the table)). The two broadcasts put row p and row j side by side at (p, j, q, c);
    the difference, absolute value and inner sum over c give the distance; negation, exponential and the outer sum
    over j give the result. Both sums start from the zero word. -/
theorem ref_eq (x0 : (⟨S256x2048, .f32⟩ : BufTy).Contents (Elt Ideal)) (x1 : (⟨S2048x64x32, .f32⟩ : BufTy).Contents (Elt Ideal))
    (p : Fin 256) (q : Fin 64) :
    val_main_v12 (F := Ideal) x0 x1 (ix2 p q) = Cert.Spec.pair (val_main_v2 (F := Ideal) x0 x1) p q := by
  rw [val_main_v12_apply, val_main_cst_0_apply, zero_word, zero_add]
  unfold Cert.Spec.pair
  refine Finset.sum_congr rfl fun k _ => ?_
  rw [val_main_v11_apply, val_main_v10_apply, val_main_v9_apply, val_main_cst_apply, zero_word, zero_add]
  simp only [Ideal.hostUnary_exp_def, Ideal.hostNegf_def, Ideal.negf_def]
  unfold Cert.Spec.dist
  refine congrArg Ideal.exp (congrArg Neg.neg (Finset.sum_congr rfl fun c _ => ?_))
  rw [val_main_v8_apply, val_main_v7_apply, val_main_v5_apply, val_main_v3_apply, val_main_v6_apply, val_main_v4_apply]
  simp only [Ideal.hostAbsf_def, Ideal.absf_def, Ideal.subf_def]
  generalize val_main_v2 (F := Ideal) x0 x1 = u
  have e1 : idx_main_v3 (idx_main_v5 (idx_main_v9 (idx_main_v12 (ix2 p q) k) c)) = ix3 p q c :=
    funext fun a => Fin.ext (by match a with | ⟨0, _⟩ => rfl | ⟨1, _⟩ => rfl | ⟨2, _⟩ => rfl)
  have e2 : idx_main_v4 (idx_main_v6 (idx_main_v9 (idx_main_v12 (ix2 p q) k) c)) = ix3 k q c :=
    funext fun a => Fin.ext (by match a with | ⟨0, _⟩ => rfl | ⟨1, _⟩ => rfl | ⟨2, _⟩ => rfl)
  rw [e1, e2]
  rfl

/-- The matrix product at (p, n): the sum over k of x(p, k) times T read as a matrix at (k, n). -/
theorem ms_apply (x0 : (⟨S256x2048, .f32⟩ : BufTy).Contents (Elt Ideal)) (x1 : (⟨S2048x64x32, .f32⟩ : BufTy).Contents (Elt Ideal))
    (p : Fin 256) (n : Fin 2048) :
    val_main_v1 (F := Ideal) x0 x1 (ix2 p n) = ∑ k : Fin 2048, x0 (ix2 p k) * val_main_v0 (F := Ideal) x1 (ix2 k n) := by
  rw [val_main_v1_apply]
  refine Finset.sum_congr rfl fun k _ => ?_
  have el : lidx_main_v1 (ix2 p n) k = ix2 p k :=
    funext fun a => Fin.ext (by match a with | ⟨0, _⟩ => rfl | ⟨1, _⟩ => rfl)
  have er : ridx_main_v1 (ix2 p n) k = ix2 k n :=
    funext fun a => Fin.ext (by match a with | ⟨0, _⟩ => rfl | ⟨1, _⟩ => rfl)
  rw [el, er]

end Cert.RefSide

end
-- ==== Proof.KI.Final.lean ====
/-
  The program's result, over the extended reals: after the run the result array holds, at (p, q), the reference's
  value — the sum over all rows j of exp (−(L1 distance between rows p and j, in column q, of the table x · T)).
  The first region leaves the matrix product x · T' (T' the table read as a matrix: the first host stretch); the
  second host stretch reads it as a [256, 64, 32] table and lays its rows along the last axis; the second region
  leaves the pairwise sum of the table against that transpose, which is the reference's formula.
-/
import proofs.«166065_j11759620457095_2_alg».proof.Proof.KI.Main
import proofs.«166065_j11759620457095_2_alg».proof.Proof.KI.Value0
import proofs.«166065_j11759620457095_2_alg».proof.Proof.KI.Value1
import proofs.«166065_j11759620457095_2_alg».proof.Proof.KI.HostOps
import proofs.«166065_j11759620457095_2_alg».proof.Proof.RefIsSpec
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The reference's matrix product and its reading as a [256, 64, 32] table, of the kernel's two arguments. -/
abbrev refProd (c : Dev nD) : S256x2048.Idx → EReal :=
  Cert.ReferenceIdeal.Read.val_main_v1 (F := Ideal) (m ((c : Thread nD τ).loc main_arg0)) (m ((c : Thread nD τ).loc main_arg1))
abbrev refTable (c : Dev nD) : S256x64x32.Idx → EReal :=
  Cert.ReferenceIdeal.Read.val_main_v2 (F := Ideal) (m ((c : Thread nD τ).loc main_arg0)) (m ((c : Thread nD τ).loc main_arg1))

/-- The first host stretch leaves the left factor as launched and writes the table read as a matrix. -/
theorem V1_arg0 (c : Dev nD) : X0 (V1 m ρ) c = m ((c : Thread nD τ).loc main_arg0) :=
  (W1_of m ρ c main_arg0 (by decide)).trans rfl
theorem V1_v0 (c : Dev nD) : Y0 (V1 m ρ) c
    = shapeCast S2048x2048 (m ((c : Thread nD τ).loc main_arg1)) shapeCasts_S2048x64x32_S2048x2048 := by
  show StableHlo.after hostOps0 _ (Proc.devRef .tc main_v0) = _
  after_results
  rfl

/-- The matrix product of the arguments as the first region finds them is the reference's. -/
theorem prod_eq (c : Dev nD) : prod (X0 (V1 m ρ) c) (Y0 (V1 m ρ) c) = refProd m c := by
  rw [V1_arg0, V1_v0]
  funext i
  obtain ⟨p, n, rfl⟩ : ∃ (p : Fin 256) (n : Fin 2048), i = ix2 p n := ⟨i 0, i 1, eq_ix2 i⟩
  exact (Cert.RefSide.ms_apply _ _ p n).symm

/-- The first region leaves the reference's matrix product in its result array. -/
theorem W2_v1 (c : Dev nD) : W2 m ρ c (Proc.devRef .tc main_v1) = refProd m c :=
  (W2_arr m ρ c 2).trans ((final0 (V1 m ρ) c).trans (prod_eq m ρ c))

/-- The second host stretch reads it as the reference's table and lays the table's rows along the last axis. -/
theorem V3_v2 (c : Dev nD) : X1 (V3 m ρ) c = refTable m c := by
  show StableHlo.after hostOps1 _ (Proc.devRef .tc main_v2) = _
  after_results
  rw [W2_v1]
  rfl
theorem V3_v3 (c : Dev nD) : Y1 (V3 m ρ) c = Cert.Spec.rowsLast (refTable m c) := by
  show StableHlo.after hostOps1 _ (Proc.devRef .tc main_v3) = _
  after_results
  rw [W2_v1]
  exact transpose_rowsLast _

/-- THE RESULT: the last boundary's contents of the result array are the reference's result of the arguments. -/
theorem result_eq (c : Dev nD) : W4 m ρ c (Proc.devRef .tc main_v4)
    = Cert.ReferenceIdeal.Read.val_main_v12 (F := Ideal) (m ((c : Thread nD τ).loc main_arg0)) (m ((c : Thread nD τ).loc main_arg1)) := by
  refine (W4_arr m ρ c 2).trans ((final1 (V3 m ρ) c).trans ?_)
  rw [V3_v2, V3_v3]
  funext i
  obtain ⟨p, q, rfl⟩ : ∃ (p : Fin 256) (q : Fin 64), i = ix2 p q := ⟨i 0, i 1, eq_ix2 i⟩
  exact (Cert.RefSide.ref_eq _ _ p q).symm

/-- The run, read at Ideal: the result array at the reference's result, the arguments unchanged. -/
theorem run_value : θ_run defs (onTc (τ := τ) (main (F := Ideal))) ⟨m, fun _ => 0, ρ⟩ (fun r => ∀ c : Dev nD,
      r.2.mem ((c.tc : Thread nD τ).loc main_v4)
        = Cert.ReferenceIdeal.Read.val_main_v12 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v4 (by decide))).trans (result_eq m ρ c),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.lean ====
/-
  The claim: the Pallas program forward(x, T) — a matrix product x · T' accumulated over four contraction blocks in
  an accumulator kept between grid points, its result read as a [256, 64, 32] table Ms and transposed, then a second
  kernel that sums, over two tiles of 128 lanes, exp (−∑_c |Ms(i,b,c) − Ms(j,b,c)|) into an accumulator — and the jnp
  reference compute the same array over the extended reals.

  Each program's frame (it terminates, faults nowhere, leaves x and T unchanged): for the two kernel programs, the run
  of the two regions between the host stretches, each region's invariant carrying its accumulator at a named value
  from one grid point to the next; for the reference, its straight-line run. The idealization rewrote nothing.
  The value: the first region's result array is the matrix product (four slab sums regrouped into one sum over 2048
  indices); the second's is the pairwise sum (two tile sums regrouped into one sum over 256 rows); the reference's
  operations, read at an element, give the same formula of the same table. Only the commutative-monoid laws of
  addition are used: no finiteness of the inputs is needed.
-/
import proofs.«166065_j11759620457095_2_alg».proof.Defs
import proofs.«166065_j11759620457095_2_alg».proof.Proof.Gen.Kernel
import proofs.«166065_j11759620457095_2_alg».proof.Proof.Gen.KernelIdeal
import proofs.«166065_j11759620457095_2_alg».proof.Proof.Gen.ReferenceIdeal
import proofs.«166065_j11759620457095_2_alg».proof.Proof.Gen.ReferenceIdeal.Read
import proofs.«166065_j11759620457095_2_alg».proof.Proof.Gen.Pre_finite_inputs
import proofs.«166065_j11759620457095_2_alg».proof.Proof.KW.Main
import proofs.«166065_j11759620457095_2_alg».proof.Proof.KI.Final

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs end with the reference's result of their (agreeing) arguments in the result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v12 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
